-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S1x1024 : Shape := ⟨2, ![1, 1024]⟩
abbrev S35x1024 : Shape := ⟨2, ![35, 1024]⟩
abbrev S50000x1024 : Shape := ⟨2, ![50000, 1024]⟩
abbrev S35x2048 : Shape := ⟨2, ![35, 2048]⟩
abbrev S35 : Shape := ⟨1, ![35]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50000 : Shape := ⟨1, ![50000]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S35x1024 : S_.BroadcastsInDim S35x1024 (![] : Fin 0 → Fin S35x1024.rank)
  reducesTo_S35x1024_S_d0_1 : S35x1024.ReducesTo [0, 1] S_
  bcast_S_S50000x1024 : S_.BroadcastsInDim S50000x1024 (![] : Fin 0 → Fin S50000x1024.rank)
  reducesTo_S50000x1024_S_d0_1 : S50000x1024.ReducesTo [0, 1] S_
  bcast_S_S35x2048 : S_.BroadcastsInDim S35x2048 (![] : Fin 0 → Fin S35x2048.rank)
  reducesTo_S35x2048_S_d0_1 : S35x2048.ReducesTo [0, 1] S_
  bcast_S_S35 : S_.BroadcastsInDim S35 (![] : Fin 0 → Fin S35.rank)
  reducesTo_S35_S_d0 : S35.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S3072 .f32) (main_arg13 : FVec F S50000x1024 .f32) (main_arg14 : FVec F S50000 .f32) (main_v48 : IVec S_ 1) (main_v49 : FVec F S3072x1024 .f32) (main_v50 : FVec F S3072x1024 .f32) : IVec S_ 1 :=
  let main_v51 : IVec S3072x1024 1 := cmpf .olt main_v49 main_v50
  let main_c_19 : IVec S_ 1 := constantI S_ 1 1#1
  let main_v52 : IVec S_ 1 := (fun x v => Host.reduce IntOp.andi x v reducesTo_S3072x1024_S_d0_1 h_S_) main_v51 main_c_19
  let main_v53 : IVec S_ 1 := andi main_v48 main_v52
  let main_v54 : FVec F S3072 .f32 := Host.absf main_arg12
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  let main_v59 : FVec F S50000x1024 .f32 := Host.absf main_arg13
  let main_cst_22 : FVec F S_ .f32 := constant S_ .f32 0x7F800000#32
  let main_v60 : FVec F S50000x1024 .f32 := broadcastInDim S50000x1024 ![] bcast_S_S50000x1024 main_cst_22
  let main_v61 : IVec S50000x1024 1 := cmpf .olt main_v59 main_v60
  let main_c_23 : IVec S_ 1 := constantI S_ 1 1#1
  let main_v62 : IVec S_ 1 := (fun x v => Host.reduce IntOp.andi x v reducesTo_S50000x1024_S_d0_1 h_S_) main_v61 main_c_23
  let main_v63 : IVec S_ 1 := andi main_v58 main_v62
  let main_v64 : FVec F S50000 .f32 := Host.absf main_arg14
  let main_cst_24 : FVec F S_ .f32 := constant S_ .f32 0x7F800000#32
  let main_v65 : FVec F S50000 .f32 := broadcastInDim S50000 ![] bcast_S_S50000 main_cst_24
  let main_v66 : IVec S50000 1 := cmpf .olt main_v64 main_v65
  let main_c_25 : IVec S_ 1 := constantI S_ 1 1#1
  let main_v67 : IVec S_ 1 := (fun x v => Host.reduce IntOp.andi x v reducesTo_S50000_S_d0 h_S_) main_v66 main_c_25
  fn_part4 (F := F) main_v63 main_v67

def fn_part2 {F : FTy → Type} [FloatOps F] (main_arg8 : FVec F S1024 .f32) (main_arg9 : FVec F S3072x1024 .f32) (main_arg10 : FVec F S3072 .f32) (main_arg11 : FVec F S3072x1024 .f32) (main_arg12 : FVec F S3072 .f32) (main_arg13 : FVec F S50000x1024 .f32) (main_arg14 : FVec F S50000 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072x1024 .f32 := Host.absf main_arg11
  let main_cst_18 : FVec F S_ .f32 := constant S_ .f32 0x7F800000#32
  let main_v50 : FVec F S3072x1024 .f32 := broadcastInDim S3072x1024 ![] bcast_S_S3072x1024 main_cst_18
  fn_part3 (F := F) main_arg12 main_arg13 main_arg14 main_v48 main_v49 main_v50

def fn_part1 {F : FTy → Type} [FloatOps F] (main_arg5 : FVec F S35x2048 .f32) (main_arg6 : FVec F S35 .f32) (main_arg7 : FVec F S1024x2048 .f32) (main_arg8 : FVec F S1024 .f32) (main_arg9 : FVec F S3072x1024 .f32) (main_arg10 : FVec F S3072 .f32) (main_arg11 : FVec F S3072x1024 .f32) (main_arg12 : FVec F S3072 .f32) (main_arg13 : FVec F S50000x1024 .f32) (main_arg14 : FVec F S50000 .f32) (main_v13 : IVec S_ 1) (main_v16 : IVec S50000x1024 1) : IVec S_ 1 :=
  let main_c_5 : IVec S_ 1 := constantI S_ 1 1#1
  let main_v17 : IVec S_ 1 := (fun x v => Host.reduce IntOp.andi x v reducesTo_S50000x1024_S_d0_1 h_S_) main_v16 main_c_5
  let main_v18 : IVec S_ 1 := andi main_v13 main_v17
  let main_v19 : FVec F S35x2048 .f32 := Host.absf main_arg5
  let main_cst_6 : FVec F S_ .f32 := constant S_ .f32 0x7F800000#32
  let main_v20 : FVec F S35x2048 .f32 := broadcastInDim S35x2048 ![] bcast_S_S35x2048 main_cst_6
  let main_v21 : IVec S35x2048 1 := cmpf .olt main_v19 main_v20
  let main_c_7 : IVec S_ 1 := constantI S_ 1 1#1
  let main_v22 : IVec S_ 1 := (fun x v => Host.reduce IntOp.andi x v reducesTo_S35x2048_S_d0_1 h_S_) main_v21 main_c_7
  let main_v23 : IVec S_ 1 := andi main_v18 main_v22
  let main_v24 : FVec F S35 .f32 := Host.absf main_arg6
  let main_cst_8 : FVec F S_ .f32 := constant S_ .f32 0x7F800000#32
  let main_v25 : FVec F S35 .f32 := broadcastInDim S35 ![] bcast_S_S35 main_cst_8
  let main_v26 : IVec S35 1 := cmpf .olt main_v24 main_v25
  let main_c_9 : IVec S_ 1 := constantI S_ 1 1#1
  let main_v27 : IVec S_ 1 := (fun x v => Host.reduce IntOp.andi x v reducesTo_S35_S_d0 h_S_) main_v26 main_c_9
  let main_v28 : IVec S_ 1 := andi main_v23 main_v27
  let main_v29 : FVec F S1024x2048 .f32 := Host.absf main_arg7
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S1 32) (main_arg1 : FVec F S1x1x1024 .f32) (main_arg2 : FVec F S1x1024 .f32) (main_arg3 : FVec F S35x1024 .f32) (main_arg4 : FVec F S50000x1024 .f32) (main_arg5 : FVec F S35x2048 .f32) (main_arg6 : FVec F S35 .f32) (main_arg7 : FVec F S1024x2048 .f32) (main_arg8 : FVec F S1024 .f32) (main_arg9 : FVec F S3072x1024 .f32) (main_arg10 : FVec F S3072 .f32) (main_arg11 : FVec F S3072x1024 .f32) (main_arg12 : FVec F S3072 .f32) (main_arg13 : FVec F S50000x1024 .f32) (main_arg14 : FVec F S50000 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S35x1024 .f32 := Host.absf main_arg3
  let main_cst_2 : FVec F S_ .f32 := constant S_ .f32 0x7F800000#32
  let main_v10 : FVec F S35x1024 .f32 := broadcastInDim S35x1024 ![] bcast_S_S35x1024 main_cst_2
  let main_v11 : IVec S35x1024 1 := cmpf .olt main_v9 main_v10
  let main_c_3 : IVec S_ 1 := constantI S_ 1 1#1
  let main_v12 : IVec S_ 1 := (fun x v => Host.reduce IntOp.andi x v reducesTo_S35x1024_S_d0_1 h_S_) main_v11 main_c_3
  let main_v13 : IVec S_ 1 := andi main_v8 main_v12
  let main_v14 : FVec F S50000x1024 .f32 := Host.absf main_arg4
  let main_cst_4 : FVec F S_ .f32 := constant S_ .f32 0x7F800000#32
  let main_v15 : FVec F S50000x1024 .f32 := broadcastInDim S50000x1024 ![] bcast_S_S50000x1024 main_cst_4
  let main_v16 : IVec S50000x1024 1 := cmpf .olt main_v14 main_v15
  fn_part1 (F := F) main_arg5 main_arg6 main_arg7 main_arg8 main_arg9 main_arg10 main_arg11 main_arg12 main_arg13 main_arg14 main_v13 main_v16
-- ==== Kernel.lean ====
abbrev S1 : Shape := ⟨1, ![1]⟩
abbrev S1x1x1024 : Shape := ⟨3, ![1, 1, 1024]⟩
abbrev S1x1024 : Shape := ⟨2, ![1, 1024]⟩
abbrev S35x1024 : Shape := ⟨2, ![35, 1024]⟩
abbrev S50000x1024 : Shape := ⟨2, ![50000, 1024]⟩
abbrev S35x2048 : Shape := ⟨2, ![35, 2048]⟩
abbrev S35 : Shape := ⟨1, ![35]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50000 : Shape := ⟨1, ![50000]⟩
abbrev S_ : Shape := ⟨0, ![]⟩
abbrev S1x1 : Shape := ⟨2, ![1, 1]⟩
abbrev S1x2048 : Shape := ⟨2, ![1, 2048]⟩
abbrev S2048x35 : Shape := ⟨2, ![2048, 35]⟩
abbrev S1x35 : Shape := ⟨2, ![1, 35]⟩
abbrev S2048x1024 : Shape := ⟨2, ![2048, 1024]⟩
abbrev S1024x3072 : Shape := ⟨2, ![1024, 3072]⟩
abbrev S1x3072 : Shape := ⟨2, ![1, 3072]⟩
abbrev S1x50000 : Shape := ⟨2, ![1, 50000]⟩
abbrev S3200x1024 : Shape := ⟨2, ![3200, 1024]⟩
abbrev S1x3200 : Shape := ⟨2, ![1, 3200]⟩

abbrev nBuf : Space → Nat
  | .hbm => 115
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1024, .f32⟩
  | .hbm, ⟨3, _⟩ => ⟨S35x1024, .f32⟩
  | .hbm, ⟨4, _⟩ => ⟨S50000x1024, .f32⟩
  | .hbm, ⟨5, _⟩ => ⟨S35x2048, .f32⟩
  | .hbm, ⟨6, _⟩ => ⟨S35, .f32⟩
  | .hbm, ⟨7, _⟩ => ⟨S1024x2048, .f32⟩
  | .hbm, ⟨8, _⟩ => ⟨S1024, .f32⟩
  | .hbm, ⟨9, _⟩ => ⟨S3072x1024, .f32⟩
  | .hbm, ⟨10, _⟩ => ⟨S3072, .f32⟩
  | .hbm, ⟨11, _⟩ => ⟨S3072x1024, .f32⟩
  | .hbm, ⟨12, _⟩ => ⟨S3072, .f32⟩
  | .hbm, ⟨13, _⟩ => ⟨S50000x1024, .f32⟩
  | .hbm, ⟨14, _⟩ => ⟨S50000, .f32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1x1024, .f32⟩
  | .hbm, ⟨24, _⟩ => ⟨S1x1x1024, .f32⟩
  | .hbm, ⟨25, _⟩ => ⟨S1x1024, .f32⟩
  | .hbm, ⟨26, _⟩ => ⟨S1x1024, .f32⟩
  | .hbm, ⟨27, _⟩ => ⟨S1x2048, .f32⟩
  | .hbm, ⟨28, _⟩ => ⟨S2048x35, .f32⟩
  | .hbm, ⟨29, _⟩ => ⟨S1x35, .f32⟩
  | .hbm, ⟨30, _⟩ => ⟨S1x35, .f32⟩
  | .hbm, ⟨31, _⟩ => ⟨S1x35, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1x35, .f32⟩
  | .hbm, ⟨39, _⟩ => ⟨S1x35, .f32⟩
  | .hbm, ⟨40, _⟩ => ⟨S1x35, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1x35, .f32⟩
  | .hbm, ⟨45, _⟩ => ⟨S1x35, .f32⟩
  | .hbm, ⟨46, _⟩ => ⟨S1x1024, .f32⟩
  | .hbm, ⟨47, _⟩ => ⟨S1x1024, .f32⟩
  | .hbm, ⟨48, _⟩ => ⟨S1x2048, .f32⟩
  | .hbm, ⟨49, _⟩ => ⟨S2048x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x50000, .f32⟩
  | .hbm, ⟨98, _⟩ => ⟨S1x50000, .f32⟩
  | .hbm, ⟨99, _⟩ => ⟨S_, .f32⟩
  | .hbm, ⟨100, _⟩ => ⟨S1, .f32⟩
  | .hbm, ⟨101, _⟩ => ⟨S_, .f32⟩
  | .hbm, ⟨102, _⟩ => ⟨S1, .f32⟩
  | .hbm, ⟨103, _⟩ => ⟨S1, .f32⟩
  | .hbm, ⟨104, _⟩ => ⟨S1x1, .f32⟩
  | .hbm, ⟨105, _⟩ => ⟨S1x50000, .f32⟩
  | .hbm, ⟨106, _⟩ => ⟨S1x50000, .f32⟩
  | .hbm, ⟨107, _⟩ => ⟨S1x50000, .f32⟩
  | .hbm, ⟨108, _⟩ => ⟨S_, .f32⟩
  | .hbm, ⟨109, _⟩ => ⟨S1, .f32⟩
  | .hbm, ⟨110, _⟩ => ⟨S1x1, .f32⟩
  | .hbm, ⟨111, _⟩ => ⟨S1x1, .f32⟩
  | .hbm, ⟨112, _⟩ => ⟨S1x50000, .f32⟩
  | .hbm, ⟨113, _⟩ => ⟨S1x50000, .f32⟩
  | .hbm, ⟨114, _⟩ => ⟨S1x1x1024, .f32⟩
  | .local _ .vmem, ⟨0, _⟩ => ⟨S1x1024, .f32⟩
  | .local _ .vmem, ⟨1, _⟩ => ⟨S3200x1024, .f32⟩
  | .local _ .vmem, ⟨2, _⟩ => ⟨S3200x1024, .f32⟩
  | .local _ .vmem, ⟨3, _⟩ => ⟨S1x3200, .f32⟩
  | .local _ .vmem, ⟨4, _⟩ => ⟨S1x3200, .f32⟩
  | .local _ .vmem, ⟨5, _⟩ => ⟨S1x3200, .f32⟩
  | .local _ .vmem, ⟨6, _⟩ => ⟨S1x3200, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_cst_1 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_v72 : Ref sig .tc := ⟨.hbm, 113, rfl⟩
abbrev main_v73 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S35x2048_S2048x35_1_0 : S35x2048.Transposes [1, 0] S2048x35
  bcast_S35_S1x35_1 : S35.BroadcastsInDim S1x35 (![1] : Fin 1 → Fin S1x35.rank)
  reducesTo_S1x35_S1_d1 : S1x35.ReducesTo [1] S1
  h_S_ : 0 < S_.numel
  bcast_S1x1_S1x35_0_1 : S1x1.BroadcastsInDim S1x35 (![0, 1] : Fin 2 → Fin S1x35.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50000_S1x50000 : S50000.ShapeCasts S1x50000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  reducesTo_S1x50000_S1_d1 : S1x50000.ReducesTo [1] S1
  bcast_S1x1_S1x50000_0_1 : S1x1.BroadcastsInDim S1x50000 (![0, 1] : Fin 2 → Fin S1x50000.rank)
  bcast_S1x1024_S1x1x1024_1_2 : S1x1024.BroadcastsInDim S1x1x1024 (![1, 2] : Fin 2 → Fin S1x1x1024.rank)
  gather_S50000x1024_S1x1_S1x1024_1_0_n_n_0_1_11024_wf : GatherDims.WF S50000x1024 S1x1 S1x1024 [1] [0] [] [0] [] 1 ![1, 1024]
  dot_S1x2048_S2048x35_S1x35_1_0_0_1_n_n_wf : DotDims.WF S1x2048 S2048x35 S1x35 [1] [0] [0] [1] [] []
  dot_S1x35_S35x1024_S1x1024_1_0_0_1_n_n_wf : DotDims.WF S1x35 S35x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3200x1024.size a < S50000x1024.size a
  hwx0_1 : ∀ i : grid0.Coords, EltTy.bits .f32 = 32 ∨ (Rect.unit (s := S50000x1024) (fun a => cc0_transform_1 i a * S3200x1024.size a) (fun a => (Pipeline.Clip.of (cc0_transform_1 i a) (S3200x1024.size a) (S50000x1024.size a)).extent (S3200x1024.size a)) fun a => Pipeline.Clip.inb (Pipeline.Clip.ok_of (hstart0_1 i a))).WholeWords (EltTy.packing .f32)
  hwxs0_1 : ∀ i : grid0.Coords, EltTy.bits .f32 = 32 ∨ (Rect.unit (s := S3200x1024) (fun _ => 0) (fun a => (Pipeline.Clip.of (cc0_transform_1 i a) (S3200x1024.size a) (S50000x1024.size a)).extent (S3200x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x3200.size a < S1x50000.size a
  hwx0_2 : ∀ i : grid0.Coords, EltTy.bits .f32 = 32 ∨ (Rect.unit (s := S1x50000) (fun a => cc0_transform_2 i a * S1x3200.size a) (fun a => (Pipeline.Clip.of (cc0_transform_2 i a) (S1x3200.size a) (S1x50000.size a)).extent (S1x3200.size a)) fun a => Pipeline.Clip.inb (Pipeline.Clip.ok_of (hstart0_2 i a))).WholeWords (EltTy.packing .f32)
  hwxs0_2 : ∀ i : grid0.Coords, EltTy.bits .f32 = 32 ∨ (Rect.unit (s := S1x3200) (fun _ => 0) (fun a => (Pipeline.Clip.of (cc0_transform_2 i a) (S1x3200.size a) (S1x50000.size a)).extent (S1x3200.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x3200.size a < S1x50000.size a
  hwx0_3 : ∀ i : grid0.Coords, EltTy.bits .f32 = 32 ∨ (Rect.unit (s := S1x50000) (fun a => cc0_transform_3 i a * S1x3200.size a) (fun a => (Pipeline.Clip.of (cc0_transform_3 i a) (S1x3200.size a) (S1x50000.size a)).extent (S1x3200.size a)) fun a => Pipeline.Clip.inb (Pipeline.Clip.ok_of (hstart0_3 i a))).WholeWords (EltTy.packing .f32)
  hwxs0_3 : ∀ i : grid0.Coords, EltTy.bits .f32 = 32 ∨ (Rect.unit (s := S1x3200) (fun _ => 0) (fun a => (Pipeline.Clip.of (cc0_transform_3 i a) (S1x3200.size a) (S1x50000.size a)).extent (S1x3200.size a)) fun a => (Nat.zero_add _).trans_le (Pipeline.Clip.extent_le (Pipeline.Clip.ok_of (hstart0_3 i a)))).WholeWords (EltTy.packing .f32)

variable [Facts₀]

def gather_S50000x1024_S1x1_S1x1024_1_0_n_n_0_1_11024 : GatherDims S50000x1024 S1x1 S1x1024 where
  offsetDims := [1]
  collapsedSliceDims := [0]
  operandBatchingDims := []
  startIndicesBatchingDims := []
  startIndexMap := [0]
  indexVectorDim := 1
  sliceSizes := ![1, 1024]
  wf := gather_S50000x1024_S1x1_S1x1024_1_0_n_n_0_1_11024_wf
def dot_S1x2048_S2048x35_S1x35_1_0_0_1_n_n : DotDims S1x2048 S2048x35 S1x35 where
  lhsContracting := [1]
  rhsContracting := [0]
  lhsNonContracting := [0]
  rhsNonContracting := [1]
  lhsBatch := []
  rhsBatch := []
  wf := dot_S1x2048_S2048x35_S1x35_1_0_0_1_n_n_wf
def dot_S1x35_S35x1024_S1x1024_1_0_0_1_n_n : DotDims S1x35 S35x1024 S1x1024 where
  lhsContracting := [1]
  rhsContracting := [0]
  lhsNonContracting := [0]
  rhsNonContracting := [1]
  lhsBatch := []
  rhsBatch := []
  wf := dot_S1x35_S35x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v69) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg13) S3200x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v70) S1x3200.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v71) S1x3200.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S1x1024 : Shape := ⟨2, ![1, 1024]⟩
abbrev S35x1024 : Shape := ⟨2, ![35, 1024]⟩
abbrev S50000x1024 : Shape := ⟨2, ![50000, 1024]⟩
abbrev S35x2048 : Shape := ⟨2, ![35, 2048]⟩
abbrev S35 : Shape := ⟨1, ![35]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50000 : Shape := ⟨1, ![50000]⟩
abbrev S_ : Shape := ⟨0, ![]⟩
abbrev S1x1 : Shape := ⟨2, ![1, 1]⟩
abbrev S1x2048 : Shape := ⟨2, ![1, 2048]⟩
abbrev S2048x35 : Shape := ⟨2, ![2048, 35]⟩
abbrev S1x35 : Shape := ⟨2, ![1, 35]⟩
abbrev S2048x1024 : Shape := ⟨2, ![2048, 1024]⟩
abbrev S1024x3072 : Shape := ⟨2, ![1024, 3072]⟩
abbrev S1x3072 : Shape := ⟨2, ![1, 3072]⟩
abbrev S1024x50000 : Shape := ⟨2, ![1024, 50000]⟩
abbrev S1x50000 : Shape := ⟨2, ![1, 50000]⟩

abbrev nBuf : Space → Nat
  | .hbm => 117
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1024, .f32⟩
  | .hbm, ⟨3, _⟩ => ⟨S35x1024, .f32⟩
  | .hbm, ⟨4, _⟩ => ⟨S50000x1024, .f32⟩
  | .hbm, ⟨5, _⟩ => ⟨S35x2048, .f32⟩
  | .hbm, ⟨6, _⟩ => ⟨S35, .f32⟩
  | .hbm, ⟨7, _⟩ => ⟨S1024x2048, .f32⟩
  | .hbm, ⟨8, _⟩ => ⟨S1024, .f32⟩
  | .hbm, ⟨9, _⟩ => ⟨S3072x1024, .f32⟩
  | .hbm, ⟨10, _⟩ => ⟨S3072, .f32⟩
  | .hbm, ⟨11, _⟩ => ⟨S3072x1024, .f32⟩
  | .hbm, ⟨12, _⟩ => ⟨S3072, .f32⟩
  | .hbm, ⟨13, _⟩ => ⟨S50000x1024, .f32⟩
  | .hbm, ⟨14, _⟩ => ⟨S50000, .f32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1x1024, .f32⟩
  | .hbm, ⟨24, _⟩ => ⟨S1x1x1024, .f32⟩
  | .hbm, ⟨25, _⟩ => ⟨S1x1024, .f32⟩
  | .hbm, ⟨26, _⟩ => ⟨S1x1024, .f32⟩
  | .hbm, ⟨27, _⟩ => ⟨S1x2048, .f32⟩
  | .hbm, ⟨28, _⟩ => ⟨S2048x35, .f32⟩
  | .hbm, ⟨29, _⟩ => ⟨S1x35, .f32⟩
  | .hbm, ⟨30, _⟩ => ⟨S1x35, .f32⟩
  | .hbm, ⟨31, _⟩ => ⟨S1x35, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1x35, .f32⟩
  | .hbm, ⟨39, _⟩ => ⟨S1x35, .f32⟩
  | .hbm, ⟨40, _⟩ => ⟨S1x35, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1x35, .f32⟩
  | .hbm, ⟨45, _⟩ => ⟨S1x35, .f32⟩
  | .hbm, ⟨46, _⟩ => ⟨S1x1024, .f32⟩
  | .hbm, ⟨47, _⟩ => ⟨S1x1024, .f32⟩
  | .hbm, ⟨48, _⟩ => ⟨S1x2048, .f32⟩
  | .hbm, ⟨49, _⟩ => ⟨S2048x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50000, .f32⟩
  | .hbm, ⟨98, _⟩ => ⟨S1x50000, .f32⟩
  | .hbm, ⟨99, _⟩ => ⟨S1x50000, .f32⟩
  | .hbm, ⟨100, _⟩ => ⟨S1x50000, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S1x50000, .f32⟩
  | .hbm, ⟨108, _⟩ => ⟨S1x50000, .f32⟩
  | .hbm, ⟨109, _⟩ => ⟨S1x50000, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S1x1, .f32⟩
  | .hbm, ⟨114, _⟩ => ⟨S1x50000, .f32⟩
  | .hbm, ⟨115, _⟩ => ⟨S1x50000, .f32⟩
  | .hbm, ⟨116, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S35x2048_S2048x35_1_0 : S35x2048.Transposes [1, 0] S2048x35
  bcast_S35_S1x35_1 : S35.BroadcastsInDim S1x35 (![1] : Fin 1 → Fin S1x35.rank)
  reducesTo_S1x35_S1_d1 : S1x35.ReducesTo [1] S1
  h_S_ : 0 < S_.numel
  bcast_S1x1_S1x35_0_1 : S1x1.BroadcastsInDim S1x35 (![0, 1] : Fin 2 → Fin S1x35.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50000x1024_S1024x50000_1_0 : S50000x1024.Transposes [1, 0] S1024x50000
  bcast_S50000_S1x50000_1 : S50000.BroadcastsInDim S1x50000 (![1] : Fin 1 → Fin S1x50000.rank)
  reducesTo_S1x50000_S1_d1 : S1x50000.ReducesTo [1] S1
  bcast_S1x1_S1x50000_0_1 : S1x1.BroadcastsInDim S1x50000 (![0, 1] : Fin 2 → Fin S1x50000.rank)
  bcast_S1x1024_S1x1x1024_1_2 : S1x1024.BroadcastsInDim S1x1x1024 (![1, 2] : Fin 2 → Fin S1x1x1024.rank)
  gather_S50000x1024_S1x1_S1x1024_1_0_n_n_0_1_11024_wf : GatherDims.WF S50000x1024 S1x1 S1x1024 [1] [0] [] [0] [] 1 ![1, 1024]
  dot_S1x2048_S2048x35_S1x35_1_0_0_1_n_n_wf : DotDims.WF S1x2048 S2048x35 S1x35 [1] [0] [0] [1] [] []
  dot_S1x35_S35x1024_S1x1024_1_0_0_1_n_n_wf : DotDims.WF S1x35 S35x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50000_S1x50000_1_0_0_1_n_n_wf : DotDims.WF S1x1024 S1024x50000 S1x50000 [1] [0] [0] [1] [] []

variable [Facts₀]

def gather_S50000x1024_S1x1_S1x1024_1_0_n_n_0_1_11024 : GatherDims S50000x1024 S1x1 S1x1024 where
  offsetDims := [1]
  collapsedSliceDims := [0]
  operandBatchingDims := []
  startIndicesBatchingDims := []
  startIndexMap := [0]
  indexVectorDim := 1
  sliceSizes := ![1, 1024]
  wf := gather_S50000x1024_S1x1_S1x1024_1_0_n_n_0_1_11024_wf
def dot_S1x2048_S2048x35_S1x35_1_0_0_1_n_n : DotDims S1x2048 S2048x35 S1x35 where
  lhsContracting := [1]
  rhsContracting := [0]
  lhsNonContracting := [0]
  rhsNonContracting := [1]
  lhsBatch := []
  rhsBatch := []
  wf := dot_S1x2048_S2048x35_S1x35_1_0_0_1_n_n_wf
def dot_S1x35_S35x1024_S1x1024_1_0_0_1_n_n : DotDims S1x35 S35x1024 S1x1024 where
  lhsContracting := [1]
  rhsContracting := [0]
  lhsNonContracting := [0]
  rhsNonContracting := [1]
  lhsBatch := []
  rhsBatch := []
  wf := dot_S1x35_S35x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50000_S1x50000_1_0_0_1_n_n : DotDims S1x1024 S1024x50000 S1x50000 where
  lhsContracting := [1]
  rhsContracting := [0]
  lhsNonContracting := [0]
  rhsNonContracting := [1]
  lhsBatch := []
  rhsBatch := []
  wf := dot_S1x1024_S1024x50000_S1x50000_1_0_0_1_n_n_wf

class Facts : Prop extends Facts₀ where

variable [Facts]
-- ==== Proof.KBody.lean ====
/-
  The projection kernel's body, at any float instance.

  One grid point t of the kernel multiplies the 1×1024 activation row by a block of 3200 rows of the 50000×1024
  weight matrix (contracting the two last axes) and adds the matching 3200 entries of the bias row. Sixteen blocks of
  3200 cover 51200 ≥ 50000 rows, so the last block reaches 1200 rows past the matrix: the pipeline moves only the part
  inside the arrays (the first 2000 rows / entries at the last point), and the rest of a staging buffer holds words
  nobody names. This module states what the four staging buffers hold after the body in terms of what they held
  before it, for arbitrary such words, and proves the body's triple.
-/
import proofs.«146619_j47665547051595_2_alg».proof.Proof.Gen.Kernel.Skeleton
import proofs.«146619_j47665547051595_2_alg».proof.Proof.Gen.Kernel.Frame
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rAct : Rect S1x1024 := Rect.unit (s := S1x1024) ![0, 0] S1x1024.size inb_S1x1024_S1x1024_0_0
abbrev rWts : Rect S3200x1024 := Rect.unit (s := S3200x1024) ![0, 0] S3200x1024.size inb_S3200x1024_S3200x1024_0_0
abbrev rRow : Rect S1x3200 := Rect.unit (s := S1x3200) ![0, 0] S1x3200.size inb_S1x3200_S1x3200_0_0

/-- What the body leaves in the result's staging buffer, from what the activation's, the weights' and the bias's
    buffers hold: its one store, of the whole buffer. -/
def stored (x0 : Vec F S1x1024 .f32) (x1 : Vec F S3200x1024 .f32) (x2 : Vec F S1x3200 .f32) : Vec F S1x3200 .f32 :=
  View.canon [⟨rRow, k0_pay1 (View.ld x0 rAct) (View.ld x1 rWts) (View.ld x2 rRow)⟩]

/-- The one store covers the buffer. -/
theorem stored_cover (p0 : Vec F S1x3200 .f32) (y : S1x3200.Idx) :
    ∃ pc ∈ ([⟨rRow, p0⟩] : List (View.Piece (Elt F) S1x3200 .f32)), y ∈ pc.1.set :=
  View.cover_of_tiled [⟨rRow, p0⟩] S1x3200.size (by rfl) y

/-! ## The body's triple -/

set_option maxHeartbeats 1000000 in
/-- On whole staging memrefs holding `x0`, `x1`, `x2` (the result's holding anything) the body runs to the three
    inputs' buffers as they were and the result's at `stored x0 x1 x2`. -/
theorem sound_kernel (c : Dev nD) (E : Set ℕ) (i : grid0.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The word that fills out a block past its array's end in the proof data (nothing reads it). -/
abbrev pad {s : Shape} : s.Idx → Elt F .f32 := fun _ => Scalar.ofBits .f32 0#32

/-- The weights' block at point `t`, filled out to the staging buffer's 3200 rows. -/
def wts (c : Dev nD) (t : Fin cfg0.N) : S3200x1024.Idx → Elt F .f32 :=
  win0_1.fill (grid0.coords t) pad (iblk m c 1 t)
/-- The bias's block at point `t`, filled out to the staging buffer's 3200 entries. -/
def bias (c : Dev nD) (t : Fin cfg0.N) : S1x3200.Idx → Elt F .f32 :=
  win0_2.fill (grid0.coords t) pad (iblk m c 2 t)

/-- The proof data of the pipeline on core `c`: the arrays as the region finds them; after the body at point `t` the
    activation's buffer at the activation, the weights' and the bias's at their blocks filled out, the result's at what
    the body stores from those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wts m c t
    | ⟨2, _⟩ => bias m c t
    | ⟨3, _⟩ => stored (iblk m c 0 t) (wts m c t) (bias m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wts m c t := by dsimp only [dats]
theorem after_2 (c : Dev nD) (t : Fin cfg0.N) : (dats m 0 c).after 2 t = bias m c t := by dsimp only [dats]
theorem after_3 (c : Dev nD) (t : Fin cfg0.N) :
    (dats m 0 c).after 3 t = stored (iblk m c 0 t) (wts m c t) (bias m c t) := by dsimp only [dats]

/-- The activation's buffer holds the activation at every point (fetched at the first only). -/
theorem before_0 (c : Dev nD) (t : Fin cfg0.N) (d) : (dats m 0 c).before 0 t d = iblk m c 0 t :=
  before0_0_of m (dats m 0 c) (A_eq m c 0) (after_0 m c) t d

/-- The weights' buffer, fetched at every point: the block on the rows inside the matrix, anything (`d`) past them. -/
theorem before_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- The bias's buffer likewise. -/
theorem before_2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]

/-! ## The body obligation, saying nothing of the result's buffer

At an arbitrary float instance the matrix product is one function of its whole operands, so what the body stores on the
entries inside the result cannot be separated from the unnamed words past the weights' end. For the frame this does not
matter: the result is no argument. The obligation below hands the result's buffer over and takes it back at arbitrary
contents; the three inputs' buffers come back as they were. -/

/-- The windows whose contents the frame does not follow: the result's. -/
def forgotten : Fin cfg0.W → Bool := fun | 0 => false | 1 => false | 2 => false | 3 => true | ⟨_ + 4, h⟩ => absurd h (Nat.not_lt.2 (Nat.le_add_left _ _))

/-- The body at a point: the three inputs' buffers hold what the pipeline put there, the result's anything; they come back
    as they were, the result's at something. -/
theorem sound_body_forget (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ (∃ d, owns (c : Thread nD τ) (st0_1 t) fullShare (win0_1.fill (grid0.coords t) d (win0_1.cut (grid0.coords t) ((dats m 0 c).after 1 t))))
          ∗ (∃ d, owns (c : Thread nD τ) (st0_2 t) fullShare (win0_2.fill (grid0.coords t) d (win0_2.cut (grid0.coords t) ((dats m 0 c).after 2 t))))
          ∗ (∃ X, owns (c : Thread nD τ) (st0_3 t) fullShare X))) := by
  unfold bodyAt0
  have h1 : win0_1.cut (grid0.coords t) ((dats m 0 c).after 1 t) = iblk m c 1 t := by
    rw [after_1]; exact win0_1.cut_fill _ _ _
  have h2 : win0_2.cut (grid0.coords t) ((dats m 0 c).after 2 t) = iblk m c 2 t := by
    rw [after_2]; exact win0_2.cut_fill _ _ _
  simp only [before_0, before_1, before_2]
  rw [show (dats m 0 c).Φ t.succ = (dats m 0 c).Φ t.castSucc from rfl,
    show (dats m 0 c).owesAt () t.succ = (dats m 0 c).owesAt () t.castSucc from rfl, after_0, h1, h2]
  iintro ⟨HΦ, Ho, ⟨%d0, H0⟩, ⟨%d1, H1⟩, ⟨%d2, H2⟩, ⟨%X3, H3⟩⟩
  iapply (sound_kernel c Set.univ _ _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation_forget (c : Dev nD) :
    BodyObligationLoose (dats (F := F) m 0 c) (defs₀ (F := F)) Variants.none () Set.univ forgotten := fun t => by
  rw [bigSep_W0, bigSep_W0]
  exact sound_body_forget m c t

/-! ## The run, and the frame -/

/-- The buffers the host lines after the region write: the log-softmax's fifteen values and the returned state. -/
def tailWrites : Finset (Ref sig .tc) :=
  {main_call1_cst, main_call1_v0, main_call1_cst_0, main_call1_v1, main_call1_v2, main_call1_v3, main_call1_v4, main_call1_v5,
   main_call1_v6, main_call1_cst_1, main_call1_v7, main_call1_v8, main_call1_v9, main_call1_v10, main_v72, main_v73}

theorem tail_writes : ∀ ops ∈ ([hostOps1, hostOps1_1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl
    simp only [StableHlo.nullary_writes, StableHlo.unary_writes, StableHlo.binary_writes, StableHlo.ternary_writes, StableHlo.quaternary_writes, StableHlo.reshape_writes, StableHlo.binaryIndexed_writes, Finset.mem_singleton] at hb
    obtain rfl := Proc.devRef_injective (τ := τ) _ hb
    decide

set_option backward.isDefEq.respectTransparency.types false in
/-- Every weakly fair execution of @main terminates without a fault; at the end the weight matrix holds what it held at
    the region's entry, and so does every unscoped buffer that neither the region stages nor the later host lines write. -/
theorem run_forget : θ_run defs (onTc (τ := τ) (main (F := F))) (s₀ m ρ)
    (Pipeline.RDat.FramePostR cfg0 (fun c => (dats m 0 c).toRForget forgotten) tailWrites (V m)) :=
  Pipeline.RDat.θ_run_frame_around_T cfgs (0 : Fin 1) launch0 defs₀ Variants.none (fun c => (dats m 0 c).toRForget forgotten) tailWrites m ρ main
    (hbody := fun c => (body_obligation_forget m c).toRForget) (hshare := fun c => (dats m 0 c).share_full fun _ => rfl)
    (howed := fun _ _ => rfl) (V₀ := V0 m) (opss := [hostOps1, hostOps1_1]) (hsub := sfx_sub) (hfresh := sfx_fresh) (hkeep := sfx_keeps)
    (hT := tail_writes) (hmain := hmain m Variants.none) (hA := A_eq m) (hΦ := fun _ _ => rfl)

/-- The frame: the fifteen argument arrays end as launched. The weight matrix is an input window's array, never written;
    the others are staged by no window and written by no host line after the region, and none before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have kept : ∀ (r : PUnit × MemSt nD τ sig (Elt F)),
      Pipeline.RDat.FramePostR cfg0 (fun c => (dats m 0 c).toRForget forgotten) tailWrites (V m) r →
      ∀ (c : Dev nD) (b : Ref sig .tc), b.isScoped = false → (∀ w, Pipeline.arrRef spec0 w ≠ b) → b ∉ tailWrites →
        r.2.mem ((c.tc : Thread nD τ).loc b) = V m c b := fun r h c b hs ha hT =>
    (h c).2 b (Finset.mem_sdiff.mpr ⟨Pipeline.mem_restRefs_of b hs ha, hT⟩)
  refine (θ_run defs _ _).mono (fun r h c => ?_) (run_forget m ρ)
  have h13 : r.2.mem ((c.tc : Thread nD τ).loc main_arg13) = V m c main_arg13 := by
    have := (h c).1 1
    rw [Pipeline.RDat.ArrAt_in _ 1 rfl] at this
    exact this.trans (A_eq m c 1)
  exact ⟨(kept r h c main_arg0 (by decide) (by decide) (by decide)).trans (V_main_arg0 m c),
    (kept r h c main_arg1 (by decide) (by decide) (by decide)).trans (V_main_arg1 m c),
    (kept r h c main_arg2 (by decide) (by decide) (by decide)).trans (V_main_arg2 m c),
    (kept r h c main_arg3 (by decide) (by decide) (by decide)).trans (V_main_arg3 m c),
    (kept r h c main_arg4 (by decide) (by decide) (by decide)).trans (V_main_arg4 m c),
    (kept r h c main_arg5 (by decide) (by decide) (by decide)).trans (V_main_arg5 m c),
    (kept r h c main_arg6 (by decide) (by decide) (by decide)).trans (V_main_arg6 m c),
    (kept r h c main_arg7 (by decide) (by decide) (by decide)).trans (V_main_arg7 m c),
    (kept r h c main_arg8 (by decide) (by decide) (by decide)).trans (V_main_arg8 m c),
    (kept r h c main_arg9 (by decide) (by decide) (by decide)).trans (V_main_arg9 m c),
    (kept r h c main_arg10 (by decide) (by decide) (by decide)).trans (V_main_arg10 m c),
    (kept r h c main_arg11 (by decide) (by decide) (by decide)).trans (V_main_arg11 m c),
    (kept r h c main_arg12 (by decide) (by decide) (by decide)).trans (V_main_arg12 m c),
    h13.trans (V_main_arg13 m c),
    (kept r h c main_arg14 (by decide) (by decide) (by decide)).trans (V_main_arg14 m c)⟩

end Cert.Kernel.Body

end
-- ==== Proof.Body.lean ====
/-
  The projection kernel's body, at any float instance.

  One grid point t of the kernel multiplies the 1×1024 activation row by a block of 3200 rows of the 50000×1024
  weight matrix (contracting the two last axes) and adds the matching 3200 entries of the bias row. Sixteen blocks of
  3200 cover 51200 ≥ 50000 rows, so the last block reaches 1200 rows past the matrix: the pipeline moves only the part
  inside the arrays (the first 2000 rows / entries at the last point), and the rest of a staging buffer holds words
  nobody names. This module states what the four staging buffers hold after the body in terms of what they held
  before it, for arbitrary such words, and proves the body's triple.
-/
import proofs.«146619_j47665547051595_2_alg».proof.Proof.Gen.KernelIdeal.Skeleton
import proofs.«146619_j47665547051595_2_alg».proof.Proof.Gen.KernelIdeal.Frame
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rAct : Rect S1x1024 := Rect.unit (s := S1x1024) ![0, 0] S1x1024.size inb_S1x1024_S1x1024_0_0
abbrev rWts : Rect S3200x1024 := Rect.unit (s := S3200x1024) ![0, 0] S3200x1024.size inb_S3200x1024_S3200x1024_0_0
abbrev rRow : Rect S1x3200 := Rect.unit (s := S1x3200) ![0, 0] S1x3200.size inb_S1x3200_S1x3200_0_0

/-- What the body leaves in the result's staging buffer, from what the activation's, the weights' and the bias's
    buffers hold: its one store, of the whole buffer. -/
def stored (x0 : Vec F S1x1024 .f32) (x1 : Vec F S3200x1024 .f32) (x2 : Vec F S1x3200 .f32) : Vec F S1x3200 .f32 :=
  View.canon [⟨rRow, k0_pay1 (View.ld x0 rAct) (View.ld x1 rWts) (View.ld x2 rRow)⟩]

/-- The one store covers the buffer. -/
theorem stored_cover (p0 : Vec F S1x3200 .f32) (y : S1x3200.Idx) :
    ∃ pc ∈ ([⟨rRow, p0⟩] : List (View.Piece (Elt F) S1x3200 .f32)), y ∈ pc.1.set :=
  View.cover_of_tiled [⟨rRow, p0⟩] S1x3200.size (by rfl) y

/-! ## The body's triple -/

set_option maxHeartbeats 1000000 in
/-- On whole staging memrefs holding `x0`, `x1`, `x2` (the result's holding anything) the body runs to the three
    inputs' buffers as they were and the result's at `stored x0 x1 x2`. -/
theorem sound_kernel (c : Dev nD) (E : Set ℕ) (i : grid0.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The proof data -/

/-- The word that fills out a block past its array's end in the proof data (nothing reads it). -/
abbrev pad {s : Shape} : s.Idx → Elt F .f32 := fun _ => Scalar.ofBits .f32 0#32

/-- The weights' block at point `t`, filled out to the staging buffer's 3200 rows. -/
def wts (c : Dev nD) (t : Fin cfg0.N) : S3200x1024.Idx → Elt F .f32 :=
  win0_1.fill (grid0.coords t) pad (iblk m c 1 t)
/-- The bias's block at point `t`, filled out to the staging buffer's 3200 entries. -/
def bias (c : Dev nD) (t : Fin cfg0.N) : S1x3200.Idx → Elt F .f32 :=
  win0_2.fill (grid0.coords t) pad (iblk m c 2 t)

/-- The proof data of the pipeline on core `c`: the arrays as the region finds them; after the body at point `t` the
    activation's buffer at the activation, the weights' and the bias's at their blocks filled out, the result's at what
    the body stores from those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wts m c t
    | ⟨2, _⟩ => bias m c t
    | ⟨3, _⟩ => stored (iblk m c 0 t) (wts m c t) (bias m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wts m c t := by dsimp only [dats]
theorem after_2 (c : Dev nD) (t : Fin cfg0.N) : (dats m 0 c).after 2 t = bias m c t := by dsimp only [dats]
theorem after_3 (c : Dev nD) (t : Fin cfg0.N) :
    (dats m 0 c).after 3 t = stored (iblk m c 0 t) (wts m c t) (bias m c t) := by dsimp only [dats]

/-- The activation's buffer holds the activation at every point (fetched at the first only). -/
theorem before_0 (c : Dev nD) (t : Fin cfg0.N) (d) : (dats m 0 c).before 0 t d = iblk m c 0 t :=
  before0_0_of m (dats m 0 c) (A_eq m c 0) (after_0 m c) t d

/-- The weights' buffer, fetched at every point: the block on the rows inside the matrix, anything (`d`) past them. -/
theorem before_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- The bias's buffer likewise. -/
theorem before_2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]

/-! ## The body obligation, saying nothing of the result's buffer

At an arbitrary float instance the matrix product is one function of its whole operands, so what the body stores on the
entries inside the result cannot be separated from the unnamed words past the weights' end. For the frame this does not
matter: the result is no argument. The obligation below hands the result's buffer over and takes it back at arbitrary
contents; the three inputs' buffers come back as they were. -/

/-- The windows whose contents the frame does not follow: the result's. -/
def forgotten : Fin cfg0.W → Bool := fun | 0 => false | 1 => false | 2 => false | 3 => true | ⟨_ + 4, h⟩ => absurd h (Nat.not_lt.2 (Nat.le_add_left _ _))

/-- The body at a point: the three inputs' buffers hold what the pipeline put there, the result's anything; they come back
    as they were, the result's at something. -/
theorem sound_body_forget (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ (∃ d, owns (c : Thread nD τ) (st0_1 t) fullShare (win0_1.fill (grid0.coords t) d (win0_1.cut (grid0.coords t) ((dats m 0 c).after 1 t))))
          ∗ (∃ d, owns (c : Thread nD τ) (st0_2 t) fullShare (win0_2.fill (grid0.coords t) d (win0_2.cut (grid0.coords t) ((dats m 0 c).after 2 t))))
          ∗ (∃ X, owns (c : Thread nD τ) (st0_3 t) fullShare X))) := by
  unfold bodyAt0
  have h1 : win0_1.cut (grid0.coords t) ((dats m 0 c).after 1 t) = iblk m c 1 t := by
    rw [after_1]; exact win0_1.cut_fill _ _ _
  have h2 : win0_2.cut (grid0.coords t) ((dats m 0 c).after 2 t) = iblk m c 2 t := by
    rw [after_2]; exact win0_2.cut_fill _ _ _
  simp only [before_0, before_1, before_2]
  rw [show (dats m 0 c).Φ t.succ = (dats m 0 c).Φ t.castSucc from rfl,
    show (dats m 0 c).owesAt () t.succ = (dats m 0 c).owesAt () t.castSucc from rfl, after_0, h1, h2]
  iintro ⟨HΦ, Ho, ⟨%d0, H0⟩, ⟨%d1, H1⟩, ⟨%d2, H2⟩, ⟨%X3, H3⟩⟩
  iapply (sound_kernel c Set.univ _ _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation_forget (c : Dev nD) :
    BodyObligationLoose (dats (F := F) m 0 c) (defs₀ (F := F)) Variants.none () Set.univ forgotten := fun t => by
  rw [bigSep_W0, bigSep_W0]
  exact sound_body_forget m c t

/-! ## The run, and the frame -/

/-- The buffers the host lines after the region write: the log-softmax's fifteen values and the returned state. -/
def tailWrites : Finset (Ref sig .tc) :=
  {main_call1_cst, main_call1_v0, main_call1_cst_0, main_call1_v1, main_call1_v2, main_call1_v3, main_call1_v4, main_call1_v5,
   main_call1_v6, main_call1_cst_1, main_call1_v7, main_call1_v8, main_call1_v9, main_call1_v10, main_v72, main_v73}

theorem tail_writes : ∀ ops ∈ ([hostOps1, hostOps1_1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl
    simp only [StableHlo.nullary_writes, StableHlo.unary_writes, StableHlo.binary_writes, StableHlo.ternary_writes, StableHlo.quaternary_writes, StableHlo.reshape_writes, StableHlo.binaryIndexed_writes, Finset.mem_singleton] at hb
    obtain rfl := Proc.devRef_injective (τ := τ) _ hb
    decide

set_option backward.isDefEq.respectTransparency.types false in
/-- Every weakly fair execution of @main terminates without a fault; at the end the weight matrix holds what it held at
    the region's entry, and so does every unscoped buffer that neither the region stages nor the later host lines write. -/
theorem run_forget : θ_run defs (onTc (τ := τ) (main (F := F))) (s₀ m ρ)
    (Pipeline.RDat.FramePostR cfg0 (fun c => (dats m 0 c).toRForget forgotten) tailWrites (V m)) :=
  Pipeline.RDat.θ_run_frame_around_T cfgs (0 : Fin 1) launch0 defs₀ Variants.none (fun c => (dats m 0 c).toRForget forgotten) tailWrites m ρ main
    (hbody := fun c => (body_obligation_forget m c).toRForget) (hshare := fun c => (dats m 0 c).share_full fun _ => rfl)
    (howed := fun _ _ => rfl) (V₀ := V0 m) (opss := [hostOps1, hostOps1_1]) (hsub := sfx_sub) (hfresh := sfx_fresh) (hkeep := sfx_keeps)
    (hT := tail_writes) (hmain := hmain m Variants.none) (hA := A_eq m) (hΦ := fun _ _ => rfl)

/-- The frame: the fifteen argument arrays end as launched. The weight matrix is an input window's array, never written;
    the others are staged by no window and written by no host line after the region, and none before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have kept : ∀ (r : PUnit × MemSt nD τ sig (Elt F)),
      Pipeline.RDat.FramePostR cfg0 (fun c => (dats m 0 c).toRForget forgotten) tailWrites (V m) r →
      ∀ (c : Dev nD) (b : Ref sig .tc), b.isScoped = false → (∀ w, Pipeline.arrRef spec0 w ≠ b) → b ∉ tailWrites →
        r.2.mem ((c.tc : Thread nD τ).loc b) = V m c b := fun r h c b hs ha hT =>
    (h c).2 b (Finset.mem_sdiff.mpr ⟨Pipeline.mem_restRefs_of b hs ha, hT⟩)
  refine (θ_run defs _ _).mono (fun r h c => ?_) (run_forget m ρ)
  have h13 : r.2.mem ((c.tc : Thread nD τ).loc main_arg13) = V m c main_arg13 := by
    have := (h c).1 1
    rw [Pipeline.RDat.ArrAt_in _ 1 rfl] at this
    exact this.trans (A_eq m c 1)
  exact ⟨(kept r h c main_arg0 (by decide) (by decide) (by decide)).trans (V_main_arg0 m c),
    (kept r h c main_arg1 (by decide) (by decide) (by decide)).trans (V_main_arg1 m c),
    (kept r h c main_arg2 (by decide) (by decide) (by decide)).trans (V_main_arg2 m c),
    (kept r h c main_arg3 (by decide) (by decide) (by decide)).trans (V_main_arg3 m c),
    (kept r h c main_arg4 (by decide) (by decide) (by decide)).trans (V_main_arg4 m c),
    (kept r h c main_arg5 (by decide) (by decide) (by decide)).trans (V_main_arg5 m c),
    (kept r h c main_arg6 (by decide) (by decide) (by decide)).trans (V_main_arg6 m c),
    (kept r h c main_arg7 (by decide) (by decide) (by decide)).trans (V_main_arg7 m c),
    (kept r h c main_arg8 (by decide) (by decide) (by decide)).trans (V_main_arg8 m c),
    (kept r h c main_arg9 (by decide) (by decide) (by decide)).trans (V_main_arg9 m c),
    (kept r h c main_arg10 (by decide) (by decide) (by decide)).trans (V_main_arg10 m c),
    (kept r h c main_arg11 (by decide) (by decide) (by decide)).trans (V_main_arg11 m c),
    (kept r h c main_arg12 (by decide) (by decide) (by decide)).trans (V_main_arg12 m c),
    h13.trans (V_main_arg13 m c),
    (kept r h c main_arg14 (by decide) (by decide) (by decide)).trans (V_main_arg14 m c)⟩

end Cert.KernelIdeal.Body

end
-- ==== Proof.LibRowsDot.lean ====
/-
  A matrix times the transpose of another, read at an index, over the extended reals.

  For dimension numbers that contract the left operand's axis 1 with the right operand's axis 1 and keep
  (left axis 0, right axis 0) as the result's axes — rows of the left against rows of the right, the form of
  queries against keys — the contraction at result index `(a, b)` is `Σ_{k < K} l(a, k) · r(b, k)`: the same plain sum for
  a `tpu.matmul` into a zero accumulator and for the host's `dot_general`, whatever the extents. The dimension record
  enters through four coordinate facts about how it reads its operands (for a printed record each holds by
  computation), so the lemmas serve every extent.
-/
import Idealize.ShloMosaic.Lib.ValueIdx
import Idealize.ShloMosaic.PureOps.Ideal.Laws

noncomputable section

namespace Cert.Lib.RowsDot

open Idealize.ShloMosaic Idealize.ShloMosaic.ValueIdx

variable {R K C : Nat} {φ₁ φ₂ : FTy}

/-- How a rows×inner by cols×inner dimension record reads its operands: one contracted axis of extent `K`; at result
    index `i` and contraction position `q` the left operand is read at `(i 0, q)` and the right at `(i 1, q)`. -/
structure Reads (d : DotDims (⟨2, ![R, K]⟩ : Shape) (⟨2, ![C, K]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (i 1).val
  rhs1 : ∀ (i : (⟨2, ![R, C]⟩ : Shape).Idx) (q : d.contr.Idx), (d.rhsIdx i q 1).val = (q ⟨0, by omega⟩).val

variable {d : DotDims (⟨2, ![R, K]⟩ : Shape) (⟨2, ![C, K]⟩ : Shape) (⟨2, ![R, C]⟩ : Shape)}

/-- The sum over the record's contraction index is the sum over the shared inner axis' coordinate. -/
theorem sum_contr (h : Reads d) (l : FVec Ideal (⟨2, ![R, K]⟩ : Shape) φ₁) (r : FVec Ideal (⟨2, ![C, K]⟩ : Shape) φ₂)
    (a : Fin R) (b : Fin C) :
    ∑ q : d.contr.Idx, l (d.lhsIdx (ix2 a b) q) * r (d.rhsIdx (ix2 a b) q) = ∑ k : Fin K, l (ix2 a k) * r (ix2 b k) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 b k := funext fun x => Fin.ext (by
    match x with
    | ⟨0, _⟩ => exact h.rhs0 _ _
    | ⟨1, _⟩ => exact (h.rhs1 _ _).trans hk)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![C, K]⟩ : Shape) φ₂) (a : Fin R) (b : Fin C) :
    FloatOps.matmul d prec l r (constant (⟨2, ![R, C]⟩ : Shape) .f32 0x00000000#32) (ix2 a b)
      = ∑ k : Fin K, l (ix2 a k) * r (ix2 b k) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![C, K]⟩ : Shape) φ₂) (a : Fin R) (b : Fin C) :
    FloatOps.dotGeneral d prec sched l r (ix2 a b) = ∑ k : Fin K, l (ix2 a k) * r (ix2 b k) :=
  (Ideal.dotGeneral_apply d prec sched l r (ix2 a b)).trans (sum_contr h l r a b)

end Cert.Lib.RowsDot

end
-- ==== Proof.StoredAt.lean ====
/-
  The stored block at the extended reals, entry by entry.

  Over the extended reals the matrix unit's product into the zero accumulator is a plain sum, and the change of format of
  its operands is the identity, so entry (0, q) of what the body stores is  Σ_k a(0,k) · w(q,k) + b(0,q):  it reads row q of
  the weights' buffer and entry q of the bias's, and nothing else of either. The pipeline moves weight row q and bias
  entry q exactly when it moves result entry q, so the entries of the stored block that are written back do not depend on
  the unnamed words past the arrays' ends.
-/
import proofs.«146619_j47665547051595_2_alg».proof.Proof.Body
import proofs.«146619_j47665547051595_2_alg».proof.Proof.LibRowsDot
import Idealize.ShloMosaic.Lib.ValueIdx
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.ShloMosaic.Pipeline (Dat Cfg Window)

/-- The projection's dimension numbers contract axis 1 of the activation with axis 1 of the weights and keep
    (activation row, weight row). -/
theorem proj_reads : Cert.Lib.RowsDot.Reads (R := 1) (K := 1024) (C := 3200) dot_S1x1024_S3200x1024_S1x3200_1_1_0_0_n_n where
  rank := rfl
  size := rfl
  lhs0 := fun i q => rfl
  lhs1 := fun i q => DotDims.lhsIdx_val_of_single _ (cl := 1) rfl i q
  rhs0 := fun i q => rfl
  rhs1 := fun i q => DotDims.rhsIdx_val_of_single _ (cr := 1) rfl i q

/-- Entry `(p, q)` of the stored block: the activation row against row `q` of the weights' buffer, plus entry `q` of the
    bias's. It reads row `q` of the weights' buffer and no other. -/
theorem stored_at (x0 : Vec Ideal S1x1024 .f32) (x1 : Vec Ideal S3200x1024 .f32) (x2 : Vec Ideal S1x3200 .f32)
    (p : Fin 1) (q : Fin 3200) :
    stored (F := Ideal) x0 x1 x2 (ix2 p q) = (∑ k : Fin 1024, x0 (ix2 p k) * x1 (ix2 q k)) + x2 (ix2 p q) := by
  have hz : (![0, 0] : Fin 2 → Nat) = fun _ => 0 := funext fun a => by fin_cases a <;> rfl
  unfold stored
  rw [View.canon_unit_zero hz]
  simp only [View.ld_unit_zero (S := S1x1024) hz, View.ld_unit_zero (S := S3200x1024) hz, View.ld_unit_zero (S := S1x3200) hz]
  unfold k0_pay1
  rw [shapeCast_self, shapeCast_self]
  exact congrArg (· + x2 (ix2 p q)) (Cert.Lib.RowsDot.matmul_zero_apply proj_reads none
    (truncf .bf16 x0 bitsLt_bf16_f32) (truncf .bf16 x1 bitsLt_bf16_f32) p q)

/-! ## What the pipeline moves at a point -/

/-- At every point the pipeline moves as many weight rows as bias entries as result entries (3200, and 2000 at the last
    point), every one of the 1024 columns, and the one row of the bias and of the result. -/
theorem moved_extents : ∀ t : Fin cfg0.N,
    win0_1.xsize (grid0.coords t) 0 = win0_3.xsize (grid0.coords t) 1 ∧ win0_1.xsize (grid0.coords t) 1 = 1024
      ∧ win0_2.xsize (grid0.coords t) 1 = win0_3.xsize (grid0.coords t) 1 ∧ win0_2.xsize (grid0.coords t) 0 = 1
      ∧ win0_3.xsize (grid0.coords t) 0 = 1 :=
  (by decide +kernel : ∀ t : Fin grid0.N,
    win0_1.xsize (grid0.coords t) 0 = win0_3.xsize (grid0.coords t) 1 ∧ win0_1.xsize (grid0.coords t) 1 = 1024
      ∧ win0_2.xsize (grid0.coords t) 1 = win0_3.xsize (grid0.coords t) 1 ∧ win0_2.xsize (grid0.coords t) 0 = 1
      ∧ win0_3.xsize (grid0.coords t) 0 = 1)

/-- Where the transfer moved, a filled block does not depend on what it was filled over. -/
theorem fill_irrel {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm := (w.moved_iff i j).mpr h
  unfold Window.fill; rw [dif_pos hm, dif_pos hm]

/-- The entries of the stored block inside the result do not depend on the words past the weights' and the bias's end:
    entry `q` reads weight row `q` and bias entry `q`, both moved when result entry `q` is. -/
theorem cut_stored (t : Fin cfg0.N) (a : Vec Ideal S1x1024 .f32)
    (d1 d1' : S3200x1024.Idx → Elt Ideal .f32) (b1 : (win0_1.xblock (grid0.coords t)).Idx → Elt Ideal .f32)
    (d2 d2' : S1x3200.Idx → Elt Ideal .f32) (b2 : (win0_2.xblock (grid0.coords t)).Idx → Elt Ideal .f32) :
    win0_3.cut (grid0.coords t) (stored (F := Ideal) a (win0_1.fill (grid0.coords t) d1 b1) (win0_2.fill (grid0.coords t) d2 b2))
      = win0_3.cut (grid0.coords t) (stored (F := Ideal) a (win0_1.fill (grid0.coords t) d1' b1) (win0_2.fill (grid0.coords t) d2' b2)) := by
  obtain ⟨e13, e1c, e23, e20, e30⟩ := moved_extents t
  funext j
  obtain ⟨p, q, hy⟩ : ∃ (p : Fin 1) (q : Fin 3200), win0_3.xinj (grid0.coords t) j = ix2 p q :=
    ⟨win0_3.xinj (grid0.coords t) j 0, win0_3.xinj (grid0.coords t) j 1, eq_ix2 _⟩
  have hq : q.val < win0_3.xsize (grid0.coords t) 1 := by
    have e : ((win0_3.xinj (grid0.coords t) j) 1).val = q.val := congrArg (fun y : S1x3200.Idx => (y 1).val) hy
    have hj : ((win0_3.xinj (grid0.coords t) j) 1).val < win0_3.xsize (grid0.coords t) 1 := (j 1).isLt
    omega
  show stored (F := Ideal) a _ _ (win0_3.xinj (grid0.coords t) j) = stored (F := Ideal) a _ _ (win0_3.xinj (grid0.coords t) j)
  rw [hy, stored_at, stored_at]
  have hw : ∀ k : Fin 1024, win0_1.fill (grid0.coords t) d1 b1 (ix2 q k) = win0_1.fill (grid0.coords t) d1' b1 (ix2 q k) := fun k =>
    fill_irrel win0_1 _ d1 d1' b1 (ix2 q k) (fun x => by
      match x with
      | ⟨0, _⟩ => show q.val < win0_1.xsize (grid0.coords t) 0; omega
      | ⟨1, _⟩ => show k.val < win0_1.xsize (grid0.coords t) 1; have := k.isLt; omega)
  have hb : win0_2.fill (grid0.coords t) d2 b2 (ix2 p q) = win0_2.fill (grid0.coords t) d2' b2 (ix2 p q) :=
    fill_irrel win0_2 _ d2 d2' b2 (ix2 p q) (fun x => by
      match x with
      | ⟨0, _⟩ => show p.val < win0_2.xsize (grid0.coords t) 0; have := p.isLt; omega
      | ⟨1, _⟩ => show q.val < win0_2.xsize (grid0.coords t) 1; omega)
  rw [hb]
  exact congrArg (· + _) (Finset.sum_congr rfl fun k _ => by rw [hw k])

end Cert.KernelIdeal.Body

end
-- ==== Proof.IdealRun.lean ====
/-
  The kernel's run at the extended reals, with the result's staging buffer followed.

  At each point the body leaves in the result's buffer, on the entries the write-back moves, what the proof data names;
  the pipeline's run then ends with the result array at what the library computes from the proof data, and every other
  unscoped buffer at what the later host lines leave in it.
-/
import proofs.«146619_j47665547051595_2_alg».proof.Proof.StoredAt
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄ᵢ" => MT nD τ sig Unit (Elt Ideal) ℕ (UR sig nD τ) ℕ

variable (m : (ℓ : Loc nD τ sig) → Buf (Elt Ideal) ℓ) (ρ : Dev nD → PrngReg)

/-- The body at a point, the result's buffer followed: it ends holding, on the entries inside the result, what the proof
    data names (`stored` of the blocks filled out with the proof data's own word), whatever words lay past the inputs' ends. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp Idealize.ShloMosaic.frame (wpE (defs₀ (F := Ideal)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ (∃ d, owns (c : Thread nD τ) (st0_1 t) fullShare (win0_1.fill (grid0.coords t) d (win0_1.cut (grid0.coords t) ((dats m 0 c).after 1 t))))
          ∗ (∃ d, owns (c : Thread nD τ) (st0_2 t) fullShare (win0_2.fill (grid0.coords t) d (win0_2.cut (grid0.coords t) ((dats m 0 c).after 2 t))))
          ∗ (∃ d, owns (c : Thread nD τ) (st0_3 t) fullShare (win0_3.fill (grid0.coords t) d (win0_3.cut (grid0.coords t) ((dats m 0 c).after 3 t)))))) := by
  unfold bodyAt0
  have h1 : win0_1.cut (grid0.coords t) ((dats m 0 c).after 1 t) = iblk m c 1 t := by
    rw [after_1]; exact win0_1.cut_fill _ _ _
  have h2 : win0_2.cut (grid0.coords t) ((dats m 0 c).after 2 t) = iblk m c 2 t := by
    rw [after_2]; exact win0_2.cut_fill _ _ _
  have h3 : ∀ d1 d2, win0_3.fill (grid0.coords t)
        (stored (F := Ideal) (iblk m c 0 t) (win0_1.fill (grid0.coords t) d1 (iblk m c 1 t)) (win0_2.fill (grid0.coords t) d2 (iblk m c 2 t)))
        (win0_3.cut (grid0.coords t) ((dats m 0 c).after 3 t))
      = stored (F := Ideal) (iblk m c 0 t) (win0_1.fill (grid0.coords t) d1 (iblk m c 1 t)) (win0_2.fill (grid0.coords t) d2 (iblk m c 2 t)) :=
    fun d1 d2 => win0_3.fill_congr_cut (grid0.coords t) (by
      rw [after_3]; unfold wts bias
      exact cut_stored t (iblk m c 0 t) d1 pad (iblk m c 1 t) d2 pad (iblk m c 2 t))
  simp only [before_0, before_1, before_2]
  rw [show (dats m 0 c).Φ t.succ = (dats m 0 c).Φ t.castSucc from rfl,
    show (dats m 0 c).owesAt () t.succ = (dats m 0 c).owesAt () t.castSucc from rfl, after_0, h1, h2]
  iintro ⟨HΦ, Ho, ⟨%d0, H0⟩, ⟨%d1, H1⟩, ⟨%d2, H2⟩, ⟨%d3, H3⟩⟩
  iapply (sound_kernel c Set.univ _ _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (stored (F := Ideal) (iblk m c 0 t) (win0_1.fill (grid0.coords t) d1 (iblk m c 1 t)) (win0_2.fill (grid0.coords t) d2 (iblk m c 2 t)))
  rw [h3 d1 d2]; iexact H3

theorem body_obligation (c : Dev nD) :
    BodyObligationLoose (dats (F := Ideal) m 0 c) (defs₀ (F := Ideal)) Variants.none () Set.univ := fun t => by
  rw [bigSep_W0, bigSep_W0]
  exact sound_body m c t

/-! ## The run at the extended reals -/

set_option backward.isDefEq.respectTransparency.types false in
/-- Every weakly fair execution of @main terminates without a fault; every array of the pipeline ends at what the library
    computes from the proof data, every other unscoped buffer at what the host lines after the region leave in it. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

end Cert.KernelIdeal.Body

end
-- ==== Proof.Logits.lean ====
/-
  The result array after the region, at the extended reals.

  Entry v of the result is written back once, by point v / 3200, as entry v − 3200·(v / 3200) of that point's stored block,
  which is the hidden state against weight row v plus bias entry v: a block's element sits at (block index) × (block size)
  + its coordinate, and weight block, bias block and result block t all start at 3200·t. The sixteen blocks' moved parts
  (3200 entries, 2000 at the last point) cover the 50000 entries, so the array ends as ONE function of the three arrays the
  region finds: the logits.
-/
import proofs.«146619_j47665547051595_2_alg».proof.Proof.StoredAt
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The logits as one function of the three arrays -/

/-- One logit: the hidden state against weight row `v`, plus bias entry `v`. -/
def logitAt (A : S1x1024.Idx → Elt Ideal .f32) (W : S50000x1024.Idx → Elt Ideal .f32) (B : S1x50000.Idx → Elt Ideal .f32)
    (v : Fin 50000) : Elt Ideal .f32 :=
  (∑ k : Fin 1024, A (ix2 0 k) * W (ix2 v k)) + B (ix2 0 v)

/-- The 1×50000 row of logits. -/
def logits (A : S1x1024.Idx → Elt Ideal .f32) (W : S50000x1024.Idx → Elt Ideal .f32) (B : S1x50000.Idx → Elt Ideal .f32) :
    S1x50000.Idx → Elt Ideal .f32 := fun i => logitAt A W B ⟨(i 1).val, (i 1).isLt⟩

/-! ## The blocks' places, decided over the grid -/

/-- The activation's block is always the whole row; weight block, bias block and result block `t` all start at entry
    `3200 · t`; the moved extent is 3200, and 2000 at the last of the sixteen points. -/
theorem idx_facts : ∀ t : Fin cfg0.N,
    win0_0.index t (0 : Fin 2) = 0 ∧ win0_0.index t (1 : Fin 2) = 0
      ∧ win0_1.index t (0 : Fin 2) = t.val ∧ win0_1.index t (1 : Fin 2) = 0
      ∧ win0_2.index t (0 : Fin 2) = 0 ∧ win0_2.index t (1 : Fin 2) = t.val
      ∧ win0_3.index t (0 : Fin 2) = 0 ∧ win0_3.index t (1 : Fin 2) = t.val
      ∧ ((win0_3.xsize (grid0.coords t) 1 = 3200 ∧ t.val < 15) ∨ (win0_3.xsize (grid0.coords t) 1 = 2000 ∧ t.val = 15)) :=
  (by decide +kernel : ∀ t : Fin grid0.N,
    win0_0.index t (0 : Fin 2) = 0 ∧ win0_0.index t (1 : Fin 2) = 0
      ∧ win0_1.index t (0 : Fin 2) = t.val ∧ win0_1.index t (1 : Fin 2) = 0
      ∧ win0_2.index t (0 : Fin 2) = 0 ∧ win0_2.index t (1 : Fin 2) = t.val
      ∧ win0_3.index t (0 : Fin 2) = 0 ∧ win0_3.index t (1 : Fin 2) = t.val
      ∧ ((win0_3.xsize (grid0.coords t) 1 = 3200 ∧ t.val < 15) ∨ (win0_3.xsize (grid0.coords t) 1 = 2000 ∧ t.val = 15)))

/-! ## What point `t` writes back -/

set_option maxHeartbeats 4000000 in
/-- The entries the write-back at point `t` moves are block `t` of the logits of the hidden state, the weight matrix and
    the bias row as the region finds them. -/
theorem flushed_eq (c : Dev nD) (t : Fin cfg0.N) :
    (dats m 0 c).flushed 3 t
      = ((cfg0.win 3).blk t).view.read (Elt Ideal) (logits (V m c (Pipeline.arrRef spec0 0)) (V m c (Pipeline.arrRef spec0 1)) (V m c (Pipeline.arrRef spec0 2))) := by
  show (cfg0.win 3).cut (grid0.coords t) ((dats m 0 c).after 3 t) = _
  rw [after_3]
  -- the three arrays enter only as functions of an index: name them, so that nothing below looks inside them
  unfold wts bias iblk
  generalize V m c (Pipeline.arrRef spec0 0) = A69
  generalize V m c (Pipeline.arrRef spec0 1) = A13
  generalize V m c (Pipeline.arrRef spec0 2) = A70
  obtain ⟨e13, e1c, e23, e20, e30⟩ := moved_extents t
  obtain ⟨i00, i01, i10, i11, i20, i21, i30, i31, hx⟩ := idx_facts t
  funext j
  obtain ⟨p, q, hy⟩ : ∃ (p : Fin 1) (q : Fin 3200), win0_3.xinj (grid0.coords t) j = ix2 p q :=
    ⟨win0_3.xinj (grid0.coords t) j 0, win0_3.xinj (grid0.coords t) j 1, eq_ix2 _⟩
  have eq1 : ((win0_3.xinj (grid0.coords t) j) 1).val = q.val := congrArg (fun y : S1x3200.Idx => (y 1).val) hy
  have hj : (j 1).val < win0_3.xsize (grid0.coords t) 1 := (j 1).isLt
  have ej : ((win0_3.xinj (grid0.coords t) j) 1).val = (j 1).val := rfl
  have hq : q.val < win0_3.xsize (grid0.coords t) 1 := by omega
  have hp : p.val = 0 := by have := p.isLt; omega
  have hrow : t.val * 3200 + q.val < 50000 := by have := t.isLt; have : cfg0.N = 16 := rfl; omega
  show stored (F := Ideal) _ _ _ (win0_3.xinj (grid0.coords t) j) = cast _ (logits A69 A13 A70 (((cfg0.win 3).blk t).view.emb j))
  rw [hy, stored_at, cast_eq]
  -- each factor at its place in its array: a block's element sits at (block index) × (block size) + its coordinate
  have hA : ∀ k : Fin 1024, ((cfg0.win 0).blk t).view.read (Elt Ideal) A69 (ix2 p k) = A69 (ix2 0 k) := fun k => by
    rw [View.read_apply, cast_eq]
    refine congrArg A69 (funext fun a => Fin.ext ?_)
    match a with
    | ⟨0, _⟩ => show win0_0.index t (0 : Fin 2) * 1 + 1 * p.val = 0; omega
    | ⟨1, _⟩ => show win0_0.index t (1 : Fin 2) * 1024 + 1 * k.val = k.val; omega
  have hW : ∀ k : Fin 1024, win0_1.fill (grid0.coords t) pad (((cfg0.win 1).blk t).view.read (Elt Ideal) A13) (ix2 q k)
      = A13 (ix2 ⟨t.val * 3200 + q.val, hrow⟩ k) := fun k => by
    have hm : win0_1.moved (grid0.coords t) (ix2 q k) = true := (win0_1.moved_iff _ _).mpr (fun a => by
      match a with
      | ⟨0, _⟩ => show q.val < win0_1.xsize (grid0.coords t) 0; omega
      | ⟨1, _⟩ => show k.val < win0_1.xsize (grid0.coords t) 1; have := k.isLt; omega)
    unfold Window.fill
    rw [dif_pos hm, View.read_apply, cast_eq]
    refine congrArg A13 (funext fun a => Fin.ext ?_)
    match a with
    | ⟨0, _⟩ => show win0_1.index t (0 : Fin 2) * 3200 + 1 * q.val = t.val * 3200 + q.val; omega
    | ⟨1, _⟩ => show win0_1.index t (1 : Fin 2) * 1024 + 1 * k.val = k.val; omega
  have hB : win0_2.fill (grid0.coords t) pad (((cfg0.win 2).blk t).view.read (Elt Ideal) A70) (ix2 p q)
      = A70 (ix2 0 ⟨t.val * 3200 + q.val, hrow⟩) := by
    have hm : win0_2.moved (grid0.coords t) (ix2 p q) = true := (win0_2.moved_iff _ _).mpr (fun a => by
      match a with
      | ⟨0, _⟩ => show p.val < win0_2.xsize (grid0.coords t) 0; omega
      | ⟨1, _⟩ => show q.val < win0_2.xsize (grid0.coords t) 1; omega)
    unfold Window.fill
    rw [dif_pos hm, View.read_apply, cast_eq]
    refine congrArg A70 (funext fun a => Fin.ext ?_)
    match a with
    | ⟨0, _⟩ => show win0_2.index t (0 : Fin 2) * 1 + 1 * p.val = 0; omega
    | ⟨1, _⟩ => show win0_2.index t (1 : Fin 2) * 3200 + 1 * q.val = t.val * 3200 + q.val; omega
  have hE : ((((cfg0.win 3).blk t).view.emb j) 1).val = t.val * 3200 + q.val := by
    show win0_3.index t (1 : Fin 2) * 3200 + 1 * (j 1).val = _; omega
  have hv : (⟨((((cfg0.win 3).blk t).view.emb j) 1).val, ((((cfg0.win 3).blk t).view.emb j) 1).isLt⟩ : Fin 50000)
      = ⟨t.val * 3200 + q.val, hrow⟩ := Fin.ext hE
  show _ = logitAt A69 A13 A70
    ⟨((((cfg0.win 3).blk t).view.emb j) 1).val, ((((cfg0.win 3).blk t).view.emb j) 1).isLt⟩
  rw [hv, hB]
  unfold logitAt
  exact congrArg (· + _) (Finset.sum_congr rfl fun k _ => by rw [hA k, hW k])

/-! ## Which entries a point's write-back covers -/

/-- An entry of the result is in point `t`'s block iff, on each axis, it lies from the block's start over the extent the
    write-back moves. -/
theorem mem_blk (t : Fin cfg0.N) (i : S1x50000.Idx) :
    i ∈ ((cfg0.win 3).blk t).view.set ↔ ∀ a : Fin 2, win0_3.index t a * S1x3200.size a ≤ (i a).val
      ∧ (i a).val < win0_3.index t a * S1x3200.size a + win0_3.xsize (grid0.coords t) a := by
  show i ∈ ((View.whole main_v71).slice (win0_3.rect t)).set ↔ _
  rw [View.set_slice_whole, Rect.mem_set_unit]
  exact Iff.rfl

/-- Every entry of the result is written back at some point: entry `v` at point `v / 3200`. -/
theorem covered (i : S1x50000.Idx) : ∃ t : Fin cfg0.N, (cfg0.win 3).flush t = true ∧ i ∈ ((cfg0.win 3).blk t).view.set := by
  have h0 : (i 0).val < 1 := (i 0).isLt
  have h1 : (i 1).val < 50000 := (i 1).isLt
  let t : Fin cfg0.N := ⟨(i 1).val / 3200, by show _ < 16; omega⟩
  have ht : t.val = (i 1).val / 3200 := rfl
  obtain ⟨i00, i01, i10, i11, i20, i21, i30, i31, hx⟩ := idx_facts t
  obtain ⟨e13, e1c, e23, e20, e30⟩ := moved_extents t
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + win0_3.xsize (grid0.coords t) 0; omega
  | ⟨1, _⟩ => show win0_3.index t (1 : Fin 2) * 3200 ≤ (i 1).val ∧ (i 1).val < win0_3.index t (1 : Fin 2) * 3200 + win0_3.xsize (grid0.coords t) 1; omega

/-- THE RESULT ARRAY after the region: the logits of the hidden state, the weight matrix and the bias row as the region
    finds them. -/
theorem final_logits (c : Dev nD) :
    (dats m 0 c).arrAt 3 cfg0.N = logits (V m c (Pipeline.arrRef spec0 0)) (V m c (Pipeline.arrRef spec0 1)) (V m c (Pipeline.arrRef spec0 2)) :=
  (dats m 0 c).arrAt_eq_of_cover 3 _ (fun t _ => flushed_eq m c t) covered

end Cert.KernelIdeal.Body

end
-- ==== Proof.Chains.lean ====
/-
  The host computations the two programs share after the projection, each spelled once as a function of its input, and the
  reference's own projection as an expression of the hidden state, the weight matrix and the bias vector.

  Both programs end with the same fifteen operations (a row-wise log-softmax of the 1×50000 logits: subtract the row's
  maximum, exponentiate, sum, take the logarithm, subtract) and the same re-layout of the new hidden state; only what
  produces the logits differs. Naming the shared chains as functions lets the comparison stop at the logits.
-/
import proofs.«146619_j47665547051595_2_alg».proof.Proof.Gen.ReferenceIdeal

noncomputable section

namespace Cert.Chains

open Cert.ReferenceIdeal Cert.ReferenceIdeal.Gen Idealize.ShloMosaic

variable {F : FTy → Type} [FloatOps F]

/-- The row's maximum (a fold of max from -inf, and one more max with -inf), laid out over the row. -/
def rowMax (z : FVec F S1x50000 .f32) : FVec F S1x50000 .f32 :=
  broadcastInDim S1x50000 ![0, 1] bcast_S1x1_S1x50000_0_1 (broadcastInDim S1x1 ![0] bcast_S1_S1x1_0
    (maximumf (broadcastInDim S1 ![] bcast_S_S1 (constant S_ .f32 0xFF800000#32))
      (Host.reduce FloatOps.maximumf z (constant S_ .f32 0xFF800000#32) reducesTo_S1x50000_S1_d1 h_S_)))

/-- The row less its maximum. -/
def shifted (z : FVec F S1x50000 .f32) : FVec F S1x50000 .f32 := subf z (rowMax z)

/-- The row-wise log-softmax: the shifted row less the logarithm of the sum of its exponentials. -/
def logSoftmaxRow (z : FVec F S1x50000 .f32) : FVec F S1x50000 .f32 :=
  subf (shifted z) (broadcastInDim S1x50000 ![0, 1] bcast_S1x1_S1x50000_0_1 (Host.log (broadcastInDim S1x1 ![0] bcast_S1_S1x1_0
    (Host.reduceAdd (Host.exp (shifted z)) (constant S_ .f32 0x00000000#32) reducesTo_S1x50000_S1_d1 h_S_))))

/-- The new hidden state, returned with a leading unit axis. -/
def stateOut (h : FVec F S1x1024 .f32) : FVec F S1x1x1024 .f32 :=
  broadcastInDim S1x1x1024 ![1, 2] bcast_S1x1024_S1x1x1024_1_2 h

/-- The reference's logits: the hidden state times the transposed weight matrix, plus the bias laid out as a row. -/
def refLogits (h : FVec F S1x1024 .f32) (W : FVec F S50000x1024 .f32) (b : FVec F S50000 .f32) : FVec F S1x50000 .f32 :=
  addf (Host.dotGeneral dot_S1x1024_S1024x50000_S1x50000_1_0_0_1_n_n none h
      (transpose S1024x50000 [1, 0] W transposes_S50000x1024_S1024x50000_1_0))
    (broadcastInDim S1x50000 ![1] bcast_S50000_S1x50000_1 b)

end Cert.Chains

end
-- ==== Proof.KernelResults.lean ====
/-
  The kernel's three results at the extended reals.

  After the region the kernel's @main runs the same fifteen log-softmax operations and the same re-layout of the hidden
  state as the reference. Read over ANY contents of the buffers at the region's exit they are the shared chains applied to
  the result array and to the hidden state; the region leaves the result array at the logits and the other arrays as it
  found them; so the run ends with the log-probabilities at the log-softmax of the logits, the returned state at the
  hidden state re-laid, and the attention weights as the host lines before the region left them.
-/
import proofs.«146619_j47665547051595_2_alg».proof.Proof.IdealRun
import proofs.«146619_j47665547051595_2_alg».proof.Proof.Logits
import proofs.«146619_j47665547051595_2_alg».proof.Proof.Chains
import Idealize.ShloMosaic.Lib.StableHlo.Run
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host lines after the region, over any contents of the buffers at the region's exit -/

theorem ofBuf_toBuf {F : FTy → Type} {T : BufTy} (x : TRef sig T) (v : T.Contents (Elt F)) : x.ofBuf (x.toBuf v) = v := by
  obtain ⟨r, h, hd, hu⟩ := x
  subst h
  rfl

theorem ofBuf_logits {F : FTy → Type} (z : (⟨S1x50000, .f32⟩ : BufTy).Contents (Elt F)) :
    (TRef.of (T := ⟨S1x50000, .f32⟩) main_v71).ofBuf z = z := rfl

theorem toBuf_logp {F : FTy → Type} (z : (⟨S1x50000, .f32⟩ : BufTy).Contents (Elt F)) :
    (TRef.of (T := ⟨S1x50000, .f32⟩) main_v72).toBuf z = z := rfl

set_option maxHeartbeats 2000000 in
/-- The log-probabilities are the shared row-wise log-softmax of whatever the result array holds. -/
theorem tail_logp (Y : Valuation τ sig (Elt Ideal)) :
    (after (List.flatten [hostOps1, hostOps1_1]) Y (Proc.devRef .tc main_v72) : S1x50000.Idx → Elt Ideal .f32)
      = Cert.Chains.logSoftmaxRow (F := Ideal) (Y (Proc.devRef .tc main_v71)) := by
  unfold Cert.Chains.logSoftmaxRow Cert.Chains.shifted Cert.Chains.rowMax
  simp only [hostOps1, hostOps1_1, List.flatten_cons, List.flatten_nil, List.append_nil, List.cons_append, List.nil_append]
  after_results_simp
  rw [toBuf_logp]
  repeat rw [ofBuf_toBuf]
  repeat rw [ofBuf_logits]
  rfl

/-- The returned state is the shared re-layout of whatever the hidden state's buffer holds. -/
theorem tail_state (Y : Valuation τ sig (Elt Ideal)) :
    (after (List.flatten [hostOps1, hostOps1_1]) Y (Proc.devRef .tc main_v73) : S1x1x1024.Idx → Elt Ideal .f32)
      = Cert.Chains.stateOut (F := Ideal) (Y (Proc.devRef .tc main_v69)) := by
  unfold Cert.Chains.stateOut
  simp only [hostOps1, hostOps1_1, List.flatten_cons, List.flatten_nil, List.append_nil, List.cons_append, List.nil_append]
  after_results_simp

/-- The attention weights are written before the region and by no line after it. -/
theorem tail_attn (Y : Valuation τ sig (Elt Ideal)) :
    after (List.flatten [hostOps1, hostOps1_1]) Y (Proc.devRef .tc main_v25) = Y (Proc.devRef .tc main_v25) :=
  after_of_forall_not_mem (b := Proc.devRef .tc main_v25) _ _ (List.forall_iff_forall_mem.mp (by
    simp only [hostOps1, hostOps1_1, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

/-! ## The buffers at the region's exit -/

/-- The contents the host lines after the region start from: the pipeline's four arrays at what the run left in them,
    every other buffer as the region found it. -/
abbrev exitY (c : Dev nD) : Valuation τ sig (Elt Ideal) :=
  Pipeline.withArrays spec0 c (V0 m c) fun w => (dats m 0 c).arrAt w cfg0.N

theorem exit_logits (c : Dev nD) :
    exitY m c (Proc.devRef .tc main_v71) = logits (V m c (Pipeline.arrRef spec0 0)) (V m c (Pipeline.arrRef spec0 1)) (V m c (Pipeline.arrRef spec0 2)) :=
  (Pipeline.withArrays_arr spec0 launch0.win.arr_inj c _ _ 3).trans (final_logits m c)

theorem exit_hidden (c : Dev nD) : exitY m c (Proc.devRef .tc main_v69) = V m c main_v69 :=
  (Pipeline.withArrays_arr spec0 launch0.win.arr_inj c _ _ 0).trans (((dats m 0 c).arrAt_in 0 rfl _).trans (A_eq m c 0))

theorem exit_attn (c : Dev nD) : exitY m c (Proc.devRef .tc main_v25) = V m c main_v25 :=
  Pipeline.withArrays_of_ne spec0 c (V0 m c) _ main_v25 (by decide)

/-! ## The bias row the region finds -/

set_option maxHeartbeats 4000000 in
/-- The bias's array as the region finds it is the bias vector reshaped to a row (the last host line before the region). -/
theorem V_bias (c : Dev nD) :
    (V m c main_v70 : S1x50000.Idx → Elt Ideal .f32)
      = shapeCast S1x50000 (m ((c : Thread nD τ).loc main_arg14)) Cert.KernelIdeal.Facts₀.shapeCasts_S50000_S1x50000 := by
  dsimp only [V, V0]
  simp only [hostOps0, hostOps0_1, hostOps0_2, List.flatten_cons, List.flatten_nil, List.append_nil, List.cons_append, List.nil_append]
  after_results_simp
  rfl

/-! ## The kernel's run, its three results named -/

/-- Every weakly fair execution of the kernel's @main terminates without a fault; the log-probabilities are the shared
    log-softmax of the logits of the hidden state, the weight matrix and the bias row as the region finds them; the
    returned state is that hidden state re-laid; the attention weights are what the host lines before the region left;
    the arguments are unchanged. -/
theorem run_results : θ_run defs (onTc (τ := τ) (main (F := Ideal))) ⟨m, fun _ => 0, ρ⟩ fun r => ∀ c : Dev nD,
      (r.2.mem ((c.tc : Thread nD τ).loc main_v72) : S1x50000.Idx → Elt Ideal .f32)
        = Cert.Chains.logSoftmaxRow (F := Ideal) (logits (V m c (Pipeline.arrRef spec0 0)) (V m c (Pipeline.arrRef spec0 1)) (V m c (Pipeline.arrRef spec0 2)))
      ∧ (r.2.mem ((c.tc : Thread nD τ).loc main_v73) : S1x1x1024.Idx → Elt Ideal .f32) = Cert.Chains.stateOut (F := Ideal) (V m c main_v69)
      ∧ r.2.mem ((c.tc : Thread nD τ).loc main_v25) = V m c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_) (run_main m ρ)
  have rest : ∀ (b : Ref sig .tc) (hs : b.isScoped = false) (ha : ∀ w, Pipeline.arrRef spec0 w ≠ b),
      r.2.mem ((c.tc : Thread nD τ).loc b) = after (List.flatten [hostOps1, hostOps1_1]) (exitY m c) (Proc.devRef .tc b) :=
    fun b hs ha => (h c).2 b (Pipeline.mem_restRefs_of b hs ha)
  refine ⟨?_, ?_, ?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).1 1).trans (((dats m 0 c).arrAt_in 1 rfl _).trans ((A_eq m c 1).trans (V_main_arg13 m c))),
    ((h c).2 main_arg14 (Pipeline.mem_restRefs_of main_arg14 (by decide) (by decide))).trans (W_main_arg14 m (dats m) c)⟩
  · rw [rest main_v72 (by decide) (by decide), tail_logp, exit_logits]
  · rw [rest main_v73 (by decide) (by decide), tail_state, exit_hidden]
  · rw [rest main_v25 (by decide) (by decide), tail_attn, exit_attn]

end Cert.KernelIdeal.Body

end
-- ==== Proof.RefTail.lean ====
/-
  The reference program's last twenty operations, read back, and its run.

  The reference's @main is its first 82 operations (shared with the kernel's program, ending with the new hidden state)
  followed by twenty more: the weight matrix transposed, its product with the hidden state, the bias laid out as a row and
  added, the row-wise log-softmax of that, and the hidden state's re-layout. Read over ANY contents of the buffers the
  first 82 leave, the results are the shared chains applied to the hidden state, the weight matrix and the bias.
-/
import proofs.«146619_j47665547051595_2_alg».proof.Proof.RefOps
import proofs.«146619_j47665547051595_2_alg».proof.Proof.Chains
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The last twenty operations. -/
abbrev lastOps : List (HloOp τ sig (Elt F)) :=
  [ unary main_arg13 main_v70 ((transpose S1024x50000 [1, 0] · transposes_S50000x1024_S1024x50000_1_0) : (⟨S50000x1024, .f32⟩ : BufTy).Contents (Elt F) → (⟨S1024x50000, .f32⟩ : BufTy).Contents (Elt F)),
    binary main_v69 main_v70 main_v71 ((fun l r => Host.dotGeneral dot_S1x1024_S1024x50000_S1x50000_1_0_0_1_n_n none l r) : (⟨S1x1024, .f32⟩ : BufTy).Contents (Elt F) → (⟨S1024x50000, .f32⟩ : BufTy).Contents (Elt F) → (⟨S1x50000, .f32⟩ : BufTy).Contents (Elt F)),
    unary main_arg14 main_v72 (broadcastInDim S1x50000 ![1] bcast_S50000_S1x50000_1 : (⟨S50000, .f32⟩ : BufTy).Contents (Elt F) → (⟨S1x50000, .f32⟩ : BufTy).Contents (Elt F)),
    binary main_v71 main_v72 main_v73 (addf : (⟨S1x50000, .f32⟩ : BufTy).Contents (Elt F) → (⟨S1x50000, .f32⟩ : BufTy).Contents (Elt F) → (⟨S1x50000, .f32⟩ : BufTy).Contents (Elt F)),
    TRef.nullary (TRef.of (T := ⟨S_, .f32⟩) main_call1_cst) (constant S_ .f32 0xFF800000#32),
    TRef.binary (TRef.of (T := ⟨S1x50000, .f32⟩) main_v73) (TRef.of (T := ⟨S_, .f32⟩) main_call1_cst) (TRef.of (T := ⟨S1, .f32⟩) main_call1_v0) (fun x v => Host.reduce FloatOps.maximumf x v reducesTo_S1x50000_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50000, .f32⟩) main_call1_v4) (broadcastInDim S1x50000 ![0, 1] bcast_S1x1_S1x50000_0_1),
    TRef.binary (TRef.of (T := ⟨S1x50000, .f32⟩) main_v73) (TRef.of (T := ⟨S1x50000, .f32⟩) main_call1_v4) (TRef.of (T := ⟨S1x50000, .f32⟩) main_call1_v5) subf,
    TRef.unary (TRef.of (T := ⟨S1x50000, .f32⟩) main_call1_v5) (TRef.of (T := ⟨S1x50000, .f32⟩) main_call1_v6) Host.exp,
    TRef.nullary (TRef.of (T := ⟨S_, .f32⟩) main_call1_cst_1) (constant S_ .f32 0x00000000#32),
    TRef.binary (TRef.of (T := ⟨S1x50000, .f32⟩) main_call1_v6) (TRef.of (T := ⟨S_, .f32⟩) main_call1_cst_1) (TRef.of (T := ⟨S1, .f32⟩) main_call1_v7) (fun x v => Host.reduceAdd x v reducesTo_S1x50000_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50000, .f32⟩) main_call1_v10) (broadcastInDim S1x50000 ![0, 1] bcast_S1x1_S1x50000_0_1),
    TRef.binary (TRef.of (T := ⟨S1x50000, .f32⟩) main_call1_v5) (TRef.of (T := ⟨S1x50000, .f32⟩) main_call1_v10) (TRef.of (T := ⟨S1x50000, .f32⟩) main_v74) subf,
    unary main_v69 main_v75 (broadcastInDim S1x1x1024 ![1, 2] bcast_S1x1024_S1x1x1024_1_2 : (⟨S1x1024, .f32⟩ : BufTy).Contents (Elt F) → (⟨S1x1x1024, .f32⟩ : BufTy).Contents (Elt F)) ]

/-- @main's operations are the first 82 followed by these. -/
theorem ops_eq : (ops : List (HloOp τ sig (Elt F))) = ops.take 82 ++ lastOps := rfl

/-! A value passed through a typed reference's two conversions (contents at the value's type as contents of the buffer,
and back) comes back unchanged; and each conversion alone is the identity at a buffer whose type is the value's. -/

theorem ofBuf_toBuf {T : BufTy} (x : TRef sig T) (v : T.Contents (Elt F)) : x.ofBuf (x.toBuf v) = v := by
  obtain ⟨r, h, hd, hu⟩ := x
  subst h
  rfl

theorem ofBuf_logits (z : (⟨S1x50000, .f32⟩ : BufTy).Contents (Elt F)) :
    (TRef.of (T := ⟨S1x50000, .f32⟩) main_v73).ofBuf z = z := rfl

theorem toBuf_logp (z : (⟨S1x50000, .f32⟩ : BufTy).Contents (Elt F)) :
    (TRef.of (T := ⟨S1x50000, .f32⟩) main_v74).toBuf z = z := rfl

set_option maxHeartbeats 2000000 in
/-- The log-probabilities, over any contents `X` of the buffers before the last twenty operations. -/
theorem last_logp (X : Valuation τ sig (Elt F)) :
    (after lastOps X (Proc.devRef .tc main_v74) : S1x50000.Idx → Elt F .f32)
      = Cert.Chains.logSoftmaxRow (Cert.Chains.refLogits (X (Proc.devRef .tc main_v69)) (X (Proc.devRef .tc main_arg13)) (X (Proc.devRef .tc main_arg14))) := by
  unfold Cert.Chains.logSoftmaxRow Cert.Chains.shifted Cert.Chains.rowMax Cert.Chains.refLogits
  unfold lastOps
  after_results_simp
  simp only [ofBuf_toBuf, ofBuf_logits, toBuf_logp]

/-- The returned hidden state. -/
theorem last_state (X : Valuation τ sig (Elt F)) :
    (after lastOps X (Proc.devRef .tc main_v75) : S1x1x1024.Idx → Elt F .f32) = Cert.Chains.stateOut (X (Proc.devRef .tc main_v69)) := by
  unfold Cert.Chains.stateOut
  unfold lastOps
  after_results_simp

/-- A buffer none of the last twenty operations writes keeps its contents: the attention weights and the arguments. -/
theorem last_keeps (X : Valuation τ sig (Elt F)) (b : Ref sig .tc)
    (hb : b ∉ ({main_v70, main_v71, main_v72, main_v73, main_call1_cst, main_call1_v0, main_call1_cst_0, main_call1_v1, main_call1_v2,
      main_call1_v3, main_call1_v4, main_call1_v5, main_call1_v6, main_call1_cst_1, main_call1_v7, main_call1_v8, main_call1_v9,
      main_call1_v10, main_v74, main_v75} : Finset (Ref sig .tc))) :
    after lastOps X (Proc.devRef .tc b) = X (Proc.devRef .tc b) := by
  refine after_of_forall_not_mem (b := Proc.devRef .tc b) _ _ (fun op hop hw => hb ?_)
  simp only [lastOps, List.mem_cons, List.mem_nil_iff, or_false] at hop
  rcases hop with rfl | rfl | rfl | rfl | rfl | rfl | rfl | rfl | rfl | rfl | rfl | rfl | rfl | rfl | rfl | rfl | rfl | rfl | rfl | rfl
  all_goals
    simp only [nullary_writes, unary_writes, binary_writes, ternary_writes, quaternary_writes, reshape_writes, binaryIndexed_writes, Finset.mem_singleton] at hw
    obtain rfl := Proc.devRef_injective (τ := τ) _ hw
    decide

/-! ## The reference's run -/

/-- The arguments. -/
def argSet : Finset (Ref sig .tc) :=
  {main_arg0, main_arg1, main_arg2, main_arg3, main_arg4, main_arg5, main_arg6, main_arg7, main_arg8, main_arg9, main_arg10,
   main_arg11, main_arg12, main_arg13, main_arg14}

set_option maxHeartbeats 4000000 in
/-- No operation of @main writes an argument. -/
theorem ops_keep_args : (ops : List (HloOp τ sig (Elt F))).Forall fun op => ∀ b ∈ argSet, Proc.devRef .tc b ∉ op.writes := by
  simp only [ops, List.Forall, nullary_writes, unary_writes, binary_writes, ternary_writes, quaternary_writes, reshape_writes,
    binaryIndexed_writes, Finset.mem_singleton]
  repeat' apply And.intro
  all_goals
    intro b hb h
    obtain rfl := Proc.devRef_injective (τ := τ) _ h
    revert hb
    decide

/-- The buffers after the first 82 operations (through the new hidden state), from launch contents `m`. -/
def pre (m : (ℓ : Loc nD τ sig) → Buf (Elt F) ℓ) (c : Dev nD) : Valuation τ sig (Elt F) :=
  after ((ops (F := F)).take 82) (launchContents m c)

/-- An argument is as launched after the first 82 operations, -/
theorem pre_arg (m : (ℓ : Loc nD τ sig) → Buf (Elt F) ℓ) (c : Dev nD) (b : Ref sig .tc) (hb : b ∈ argSet) :
    pre m c (Proc.devRef .tc b) = m ((c.tc : Thread nD τ).loc b) := by
  unfold pre
  exact after_of_forall_not_mem (b := Proc.devRef .tc b) _ _ (fun op hop =>
    (List.forall_iff_forall_mem.mp ops_keep_args op (List.mem_of_mem_take hop)) b hb)

/-- and after all of them. -/
theorem ops_arg (m : (ℓ : Loc nD τ sig) → Buf (Elt F) ℓ) (c : Dev nD) (b : Ref sig .tc) (hb : b ∈ argSet) :
    after (ops (F := F)) (launchContents m c) (Proc.devRef .tc b) = m ((c.tc : Thread nD τ).loc b) :=
  after_of_forall_not_mem (b := Proc.devRef .tc b) _ _ (fun op hop =>
    (List.forall_iff_forall_mem.mp ops_keep_args op hop) b hb)

/-- All of @main's operations are the last twenty after the first 82. -/
theorem after_ops (m : (ℓ : Loc nD τ sig) → Buf (Elt F) ℓ) (c : Dev nD) :
    after (ops (F := F)) (launchContents m c) = after lastOps (pre m c) :=
  (congrArg (fun l => after l (launchContents m c)) ops_eq).trans (StableHlo.after_append _ _ _)

/-- THE REFERENCE'S RUN: every weakly fair execution terminates without a fault; the log-probabilities are the shared
    log-softmax of the reference's logits of the hidden state, the weight matrix and the bias; the returned state is the
    hidden state re-laid; the attention weights are what the first 82 operations left; the arguments are unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v74) : S1x50000.Idx → Elt F .f32)
        = Cert.Chains.logSoftmaxRow (Cert.Chains.refLogits (pre m c (Proc.devRef .tc main_v69))
            (m ((c.tc : Thread nD τ).loc main_arg13)) (m ((c.tc : Thread nD τ).loc main_arg14)))
      ∧ (r.2.mem ((c.tc : Thread nD τ).loc main_v75) : S1x1x1024.Idx → Elt F .f32) = Cert.Chains.stateOut (pre m c (Proc.devRef .tc main_v69))
      ∧ r.2.mem ((c.tc : Thread nD τ).loc main_v25) = pre m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_)
    (run_seq scopedRefs_eq scopedSems_eq defs main (fun _ => ops) main_eq (fun _ => ops_sub) m ρ)
  refine ⟨?_, ?_, ?_, (h c main_arg0).trans (ops_arg m c main_arg0 (by decide)),
    (h c main_arg1).trans (ops_arg m c main_arg1 (by decide)),
    (h c main_arg2).trans (ops_arg m c main_arg2 (by decide)),
    (h c main_arg3).trans (ops_arg m c main_arg3 (by decide)),
    (h c main_arg4).trans (ops_arg m c main_arg4 (by decide)),
    (h c main_arg5).trans (ops_arg m c main_arg5 (by decide)),
    (h c main_arg6).trans (ops_arg m c main_arg6 (by decide)),
    (h c main_arg7).trans (ops_arg m c main_arg7 (by decide)),
    (h c main_arg8).trans (ops_arg m c main_arg8 (by decide)),
    (h c main_arg9).trans (ops_arg m c main_arg9 (by decide)),
    (h c main_arg10).trans (ops_arg m c main_arg10 (by decide)),
    (h c main_arg11).trans (ops_arg m c main_arg11 (by decide)),
    (h c main_arg12).trans (ops_arg m c main_arg12 (by decide)),
    (h c main_arg13).trans (ops_arg m c main_arg13 (by decide)),
    (h c main_arg14).trans (ops_arg m c main_arg14 (by decide))⟩
  · rw [h c main_v74, after_ops m c, last_logp, pre_arg m c main_arg13 (by decide), pre_arg m c main_arg14 (by decide)]
  · rw [h c main_v75, after_ops m c, last_state]
  · rw [h c main_v25, after_ops m c, last_keeps _ _ (by decide)]

end Cert.ReferenceIdeal.Hand

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LogitsLaw.lean ====
/-
  The law that joins the two programs' logits.

  The kernel's logits are, per entry v, the hidden state against weight ROW v plus entry v of the bias RESHAPED to a row;
  the reference's are the hidden state times the TRANSPOSED weight matrix — column v of which is row v of the weights — plus
  the bias BROADCAST to a row. Entry by entry both are the same sum of the same products followed by the same addition, so
  the two arrays are equal at every extended real: nothing is rearranged, and finiteness plays no part.
-/
import proofs.«146619_j47665547051595_2_alg».proof.Proof.Logits
import proofs.«146619_j47665547051595_2_alg».proof.Proof.Chains
import proofs.«146619_j47665547051595_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Body

open Idealize.ShloMosaic Idealize.ShloMosaic.ValueIdx

/-- The reference's projection contracts axis 1 of the hidden state with axis 0 of the transposed weights and keeps
    (state row, weight column). -/
theorem ref_reads : Cert.Lib.PlainDot.Reads (R := 1) (K := 1024) (C := 50000)
    Cert.ReferenceIdeal.dot_S1x1024_S1024x50000_S1x50000_1_0_0_1_n_n where
  rank := rfl
  size := rfl
  lhs0 := fun i q => rfl
  lhs1 := fun i q => DotDims.lhsIdx_val_of_single _ (cl := 1) rfl i q
  rhs0 := fun i q => DotDims.rhsIdx_val_of_single _ (cr := 0) rfl i q
  rhs1 := fun i q => rfl

open Cert.ReferenceIdeal Cert.ReferenceIdeal.Gen in
/-- Entry `v` of the reference's logits: the hidden state against COLUMN `v` of the transposed weights, which is row `v` of
    the weights, plus entry `v` of the bias. -/
theorem refLogits_at (h : FVec Ideal Cert.ReferenceIdeal.S1x1024 .f32) (W : FVec Ideal Cert.ReferenceIdeal.S50000x1024 .f32)
    (b : FVec Ideal Cert.ReferenceIdeal.S50000 .f32) (v : Fin 50000) :
    Cert.Chains.refLogits (F := Ideal) h W b (ix2 0 v) = (∑ k : Fin 1024, h (ix2 0 k) * W (ix2 v k)) + b (ix1 v) := by
  unfold Cert.Chains.refLogits
  rw [addf_apply]
  have hd : Host.dotGeneral dot_S1x1024_S1024x50000_S1x50000_1_0_0_1_n_n none h
        (transpose S1024x50000 [1, 0] W transposes_S50000x1024_S1024x50000_1_0) (ix2 0 v)
      = ∑ k : Fin 1024, h (ix2 0 k) * (transpose S1024x50000 [1, 0] W transposes_S50000x1024_S1024x50000_1_0) (ix2 k v) := by
    simp only [Host.dotGeneral]
    exact Cert.Lib.PlainDot.dotGeneral_apply ref_reads none _ h _ 0 v
  have ht : ∀ k : Fin 1024, transpose S1024x50000 [1, 0] W transposes_S50000x1024_S1024x50000_1_0 (ix2 k v) = W (ix2 v k) := fun k =>
    transpose_apply [1, 0] W transposes_S50000x1024_S1024x50000_1_0 (ix2 k v) (ix2 v k) (fun a => by
      match a with
      | ⟨0, _⟩ => rfl
      | ⟨1, _⟩ => rfl)
  have hb : broadcastInDim S1x50000 ![1] bcast_S50000_S1x50000_1 b (ix2 0 v) = b (ix1 v) :=
    broadcastInDim_apply ![1] bcast_S50000_S1x50000_1 b (ix2 0 v) (ix1 v) (fun a => by
      match a with
      | ⟨0, _⟩ => rfl)
  rw [hd, hb]
  exact congrArg (· + _) (Finset.sum_congr rfl fun k _ => by rw [ht k])

/-- The bias vector reshaped to a row, at entry `v`. -/
theorem biasRow_at (b : FVec Ideal Cert.KernelIdeal.S50000 .f32) (v : Fin 50000) :
    shapeCast Cert.KernelIdeal.S1x50000 b Cert.KernelIdeal.Facts₀.shapeCasts_S50000_S1x50000 (ix2 0 v) = b (ix1 v) :=
  shapeCast_apply b _ (ix2 0 v) (ix1 v) (by
    rw [Shape.rowMajor_val_one, Shape.rowMajor_val_two]
    show v.val = 0 * 50000 + v.val
    omega)

/-- THE LAW THAT JOINS THE TWO PROGRAMS: the kernel's logits — per entry, the hidden state against a weight row plus the
    bias reshaped to a row — are the reference's — the hidden state times the transposed weights plus the bias broadcast
    to a row. The same sum of the same products and the same one addition: no rearrangement, so it holds at every
    extended real, infinite ones included. -/
theorem logits_eq_refLogits (h : FVec Ideal Cert.KernelIdeal.S1x1024 .f32) (W : FVec Ideal Cert.KernelIdeal.S50000x1024 .f32)
    (b : FVec Ideal Cert.KernelIdeal.S50000 .f32) :
    logits h W (shapeCast Cert.KernelIdeal.S1x50000 b Cert.KernelIdeal.Facts₀.shapeCasts_S50000_S1x50000)
      = Cert.Chains.refLogits (F := Ideal) h W b := by
  funext i
  obtain ⟨p, v, rfl⟩ : ∃ (p : Fin 1) (v : Fin 50000), i = ix2 p v := ⟨i 0, i 1, eq_ix2 i⟩
  obtain rfl : p = 0 := Subsingleton.elim _ _
  rw [refLogits_at]
  unfold logits logitAt
  have hv : (⟨((ix2 (0 : Fin 1) v : Cert.KernelIdeal.S1x50000.Idx) 1).val, ((ix2 (0 : Fin 1) v : Cert.KernelIdeal.S1x50000.Idx) 1).isLt⟩ : Fin 50000) = v :=
    Fin.ext rfl
  rw [hv, biasRow_at]

end Cert.KernelIdeal.Body

end
-- ==== Proof.Assembly.lean ====
/-
  The five claims, assembled.

  The three frames: the kernel's at either float instance from the run that follows only the three inputs' staging
  buffers; the reference's from its run. The idealization rewrote nothing, so there is nothing to preserve. The algebraic
  claim: both programs' runs end with the log-softmax of the logits, the re-laid hidden state and the attention weights,
  as functions of the same hidden state, attention weights, weight matrix and bias — the hidden state and the attention
  weights being what the shared first 82 host operations compute from arguments that agree, and the two spellings of the
  logits being equal entry by entry.
-/
import proofs.«146619_j47665547051595_2_alg».proof.Defs
import proofs.«146619_j47665547051595_2_alg».proof.Proof.KBody
import proofs.«146619_j47665547051595_2_alg».proof.Proof.Body
import proofs.«146619_j47665547051595_2_alg».proof.Proof.KernelResults
import proofs.«146619_j47665547051595_2_alg».proof.Proof.RefTail
import proofs.«146619_j47665547051595_2_alg».proof.Proof.LogitsLaw
import proofs.«146619_j47665547051595_2_alg».proof.Proof.Gen.Pre_finite_inputs

set_option maxRecDepth 16384

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Body.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Hand.ref_run (F := Ideal) m ρ)

theorem preserves : Cert.preserves_Kernel_KernelIdeal := trivial

set_option maxHeartbeats 4000000 in
/-- The algebraic claim, given that the shared first 82 host operations leave the same hidden state and attention weights
    in both programs when the arguments agree. -/
theorem algebraic_of
    (hpre : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ)
        (c : Dev Cert.KernelIdeal.nD),
        (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
        Cert.ReferenceIdeal.Hand.pre m' c (Proc.devRef .tc Cert.ReferenceIdeal.main_v69) = Cert.KernelIdeal.Gen.V m c Cert.KernelIdeal.main_v69
        ∧ Cert.ReferenceIdeal.Hand.pre m' c (Proc.devRef .tc Cert.ReferenceIdeal.main_v25) = Cert.KernelIdeal.Gen.V m c Cert.KernelIdeal.main_v25) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.Chains.logSoftmaxRow (F := Ideal) (Cert.KernelIdeal.Body.logits
        (Cert.KernelIdeal.Gen.V m c (Pipeline.arrRef Cert.KernelIdeal.spec0 0)) (Cert.KernelIdeal.Gen.V m c (Pipeline.arrRef Cert.KernelIdeal.spec0 1))
        (Cert.KernelIdeal.Gen.V m c (Pipeline.arrRef Cert.KernelIdeal.spec0 2))),
      fun c => Cert.Chains.stateOut (F := Ideal) (Cert.KernelIdeal.Gen.V m c Cert.KernelIdeal.main_v69),
      fun c => Cert.KernelIdeal.Gen.V m c Cert.KernelIdeal.main_v25,
      Cert.KernelIdeal.Body.run_results m ρ, ?_⟩
  refine (θ_run Cert.ReferenceIdeal.defs _ _).mono (fun r h c => ?_) (Cert.ReferenceIdeal.Hand.ref_run (F := Ideal) m' ρ')
  obtain ⟨h74, h75, h25, hargs⟩ := h c
  obtain ⟨p69, p25⟩ := hpre m m' c (hagree c)
  have a13 := (hagree c).2.2.2.2.2.2.2.2.2.2.2.2.2.1
  have a14 := (hagree c).2.2.2.2.2.2.2.2.2.2.2.2.2.2
  -- the three arrays the region finds, in terms of the hidden state and the arguments
  have e0 : (Cert.KernelIdeal.Gen.V m c (Pipeline.arrRef Cert.KernelIdeal.spec0 0) : Cert.KernelIdeal.S1x1024.Idx → Elt Ideal .f32)
      = Cert.KernelIdeal.Gen.V m c Cert.KernelIdeal.main_v69 := rfl
  have e1 : (Cert.KernelIdeal.Gen.V m c (Pipeline.arrRef Cert.KernelIdeal.spec0 1) : Cert.KernelIdeal.S50000x1024.Idx → Elt Ideal .f32)
      = m ((c.tc : Thread Cert.KernelIdeal.nD Cert.KernelIdeal.τ).loc Cert.KernelIdeal.main_arg13) := Cert.KernelIdeal.Gen.V_main_arg13 m c
  have e2 : (Cert.KernelIdeal.Gen.V m c (Pipeline.arrRef Cert.KernelIdeal.spec0 2) : Cert.KernelIdeal.S1x50000.Idx → Elt Ideal .f32)
      = shapeCast Cert.KernelIdeal.S1x50000 (m ((c.tc : Thread Cert.KernelIdeal.nD Cert.KernelIdeal.τ).loc Cert.KernelIdeal.main_arg14))
          Cert.KernelIdeal.Facts₀.shapeCasts_S50000_S1x50000 := Cert.KernelIdeal.Body.V_bias m c
  refine ⟨?_, ?_, ?_, hargs⟩
  · refine h74.trans ?_
    rw [p69, a13, a14]
    exact congrArg (Cert.Chains.logSoftmaxRow (F := Ideal))
      (((congr (congr (congrArg Cert.KernelIdeal.Body.logits e0) e1) e2).trans
        (Cert.KernelIdeal.Body.logits_eq_refLogits _ _ _)).symm)
  · refine h75.trans ?_
    rw [p69]
  · exact h25.trans p25

end Cert.Proof

end
-- ==== Proof.PrefixAgree.lean ====
/-
  The kernel's host operations before its region and the reference's first 82 operations are the same computation:
  an embedding-row gather, an additive-attention softmax (%25), a combine layer, a rectifier and one recurrent step
  giving the new hidden state (%69). The two lists live over different buffer signatures, so they are compared by
  value: from buffer contents that agree on the fifteen arguments, %69 and %25 hold the same arrays afterwards.

  The lists are cut before each concatenation (after %9 and after %27), so that a concatenation's operands are
  contents of the stretch's starting buffers. For each stretch, contents that agree on what the stretch reads give
  results that agree on what it writes: both sides compose to the same term of the contents read, up to the names of
  the shape and dimension records. A buffer a stretch does not write keeps its contents on both sides.
-/
import proofs.«146619_j47665547051595_2_alg».proof.Proof.RefOps
import proofs.«146619_j47665547051595_2_alg».proof.Proof.Gen.KernelIdeal.Frame
import Idealize.ShloMosaic.PureOps.Ideal
import Idealize.ShloMosaic.Lib.StableHlo.Run
import Idealize.ShloMosaic.Lib.Pipeline.Frame

set_option maxRecDepth 16384

noncomputable section

namespace Cert.Bridge

open Idealize.ShloMosaic Idealize.ShloMosaic.TcCoe Idealize.SL.Sem Idealize.ShloMosaic.StableHlo

/-- The reference's buffers after its first 82 operations (through the write of the new hidden state). -/
def refPre (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) :=
  StableHlo.after ((Cert.ReferenceIdeal.RunP.ops (F := Ideal)).take 82) (StableHlo.launchContents m' c)

/-! ## The three stretches -/

/-- The reference's stretch through %9: the row index made non-negative, the embedding row, the reshapes. -/
abbrev RA : List (HloOp Cert.ReferenceIdeal.τ Cert.ReferenceIdeal.sig (Elt Ideal)) := (Cert.ReferenceIdeal.RunP.ops (F := Ideal)).take 12
/-- The reference's stretch %10 … %27: the attention weights %25, the context vector %26, the row reshaped again %27. -/
abbrev RB : List (HloOp Cert.ReferenceIdeal.τ Cert.ReferenceIdeal.sig (Elt Ideal)) := ((Cert.ReferenceIdeal.RunP.ops (F := Ideal)).take 33).drop 12
/-- The reference's stretch %28 … %69: the combine layer, the rectifier, the recurrent step. -/
abbrev RC : List (HloOp Cert.ReferenceIdeal.τ Cert.ReferenceIdeal.sig (Elt Ideal)) := ((Cert.ReferenceIdeal.RunP.ops (F := Ideal)).take 82).drop 33
/-- The kernel's stretch through %9. -/
abbrev KA : List (HloOp Cert.KernelIdeal.τ Cert.KernelIdeal.sig (Elt Ideal)) := (Cert.KernelIdeal.Gen.hostOps0 (F := Ideal)).take 12
/-- The kernel's stretch %10 … %27. -/
abbrev KB : List (HloOp Cert.KernelIdeal.τ Cert.KernelIdeal.sig (Elt Ideal)) := ((Cert.KernelIdeal.Gen.hostOps0 (F := Ideal)).take 33).drop 12
/-- The kernel's stretch from %28 on: through %69, and one reshape of the last argument after it. -/
abbrev KC : List (HloOp Cert.KernelIdeal.τ Cert.KernelIdeal.sig (Elt Ideal)) :=
  (Cert.KernelIdeal.Gen.hostOps0 (F := Ideal)).drop 33 ++ (Cert.KernelIdeal.Gen.hostOps0_1 ++ Cert.KernelIdeal.Gen.hostOps0_2)

/-- The stretches as literal lists. -/
local macro "stretch_lists" : tactic =>
  `(tactic| simp only [RA, RB, RC, KA, KB, KC, Cert.ReferenceIdeal.RunP.ops, Cert.KernelIdeal.Gen.hostOps0,
      Cert.KernelIdeal.Gen.hostOps0_1, Cert.KernelIdeal.Gen.hostOps0_2, List.take, List.drop, List.append_nil,
      List.cons_append, List.nil_append])

section Stretches

variable (XR : Valuation Cert.ReferenceIdeal.τ Cert.ReferenceIdeal.sig (Elt Ideal))
  (XK : Valuation Cert.KernelIdeal.τ Cert.KernelIdeal.sig (Elt Ideal))

set_option maxHeartbeats 1000000 in
/-- Through %9: from the row index, the hidden state and the embedding table, the embedding row %7, the hidden state as a
    matrix %8 and the row as a matrix %9 agree; the arguments read later are not written, so they still agree. -/
theorem stretchA (h0 : XR (Proc.devRef .tc Cert.ReferenceIdeal.main_arg0) = XK (Proc.devRef .tc Cert.KernelIdeal.main_arg0)) (h1 : XR (Proc.devRef .tc Cert.ReferenceIdeal.main_arg1) = XK (Proc.devRef .tc Cert.KernelIdeal.main_arg1)) (h4 : XR (Proc.devRef .tc Cert.ReferenceIdeal.main_arg4) = XK (Proc.devRef .tc Cert.KernelIdeal.main_arg4))
    (k3 : XR (Proc.devRef .tc Cert.ReferenceIdeal.main_arg3) = XK (Proc.devRef .tc Cert.KernelIdeal.main_arg3))
    (k5 : XR (Proc.devRef .tc Cert.ReferenceIdeal.main_arg5) = XK (Proc.devRef .tc Cert.KernelIdeal.main_arg5))
    (k6 : XR (Proc.devRef .tc Cert.ReferenceIdeal.main_arg6) = XK (Proc.devRef .tc Cert.KernelIdeal.main_arg6))
    (k7 : XR (Proc.devRef .tc Cert.ReferenceIdeal.main_arg7) = XK (Proc.devRef .tc Cert.KernelIdeal.main_arg7))
    (k8 : XR (Proc.devRef .tc Cert.ReferenceIdeal.main_arg8) = XK (Proc.devRef .tc Cert.KernelIdeal.main_arg8))
    (k9 : XR (Proc.devRef .tc Cert.ReferenceIdeal.main_arg9) = XK (Proc.devRef .tc Cert.KernelIdeal.main_arg9))
    (k10 : XR (Proc.devRef .tc Cert.ReferenceIdeal.main_arg10) = XK (Proc.devRef .tc Cert.KernelIdeal.main_arg10))
    (k11 : XR (Proc.devRef .tc Cert.ReferenceIdeal.main_arg11) = XK (Proc.devRef .tc Cert.KernelIdeal.main_arg11))
    (k12 : XR (Proc.devRef .tc Cert.ReferenceIdeal.main_arg12) = XK (Proc.devRef .tc Cert.KernelIdeal.main_arg12)) :
    StableHlo.after RA XR (Proc.devRef .tc Cert.ReferenceIdeal.main_v7) = StableHlo.after KA XK (Proc.devRef .tc Cert.KernelIdeal.main_v7)
    ∧ StableHlo.after RA XR (Proc.devRef .tc Cert.ReferenceIdeal.main_v8) = StableHlo.after KA XK (Proc.devRef .tc Cert.KernelIdeal.main_v8)
    ∧ StableHlo.after RA XR (Proc.devRef .tc Cert.ReferenceIdeal.main_v9) = StableHlo.after KA XK (Proc.devRef .tc Cert.KernelIdeal.main_v9)
    ∧ StableHlo.after RA XR (Proc.devRef .tc Cert.ReferenceIdeal.main_arg3) = StableHlo.after KA XK (Proc.devRef .tc Cert.KernelIdeal.main_arg3)
    ∧ StableHlo.after RA XR (Proc.devRef .tc Cert.ReferenceIdeal.main_arg5) = StableHlo.after KA XK (Proc.devRef .tc Cert.KernelIdeal.main_arg5)
    ∧ StableHlo.after RA XR (Proc.devRef .tc Cert.ReferenceIdeal.main_arg6) = StableHlo.after KA XK (Proc.devRef .tc Cert.KernelIdeal.main_arg6)
    ∧ StableHlo.after RA XR (Proc.devRef .tc Cert.ReferenceIdeal.main_arg7) = StableHlo.after KA XK (Proc.devRef .tc Cert.KernelIdeal.main_arg7)
    ∧ StableHlo.after RA XR (Proc.devRef .tc Cert.ReferenceIdeal.main_arg8) = StableHlo.after KA XK (Proc.devRef .tc Cert.KernelIdeal.main_arg8)
    ∧ StableHlo.after RA XR (Proc.devRef .tc Cert.ReferenceIdeal.main_arg9) = StableHlo.after KA XK (Proc.devRef .tc Cert.KernelIdeal.main_arg9)
    ∧ StableHlo.after RA XR (Proc.devRef .tc Cert.ReferenceIdeal.main_arg10) = StableHlo.after KA XK (Proc.devRef .tc Cert.KernelIdeal.main_arg10)
    ∧ StableHlo.after RA XR (Proc.devRef .tc Cert.ReferenceIdeal.main_arg11) = StableHlo.after KA XK (Proc.devRef .tc Cert.KernelIdeal.main_arg11)
    ∧ StableHlo.after RA XR (Proc.devRef .tc Cert.ReferenceIdeal.main_arg12) = StableHlo.after KA XK (Proc.devRef .tc Cert.KernelIdeal.main_arg12) := by
  stretch_lists
  after_results_simp
  simp only [h0, h1, h4]
  exact ⟨rfl, rfl, rfl, k3, k5, k6, k7, k8, k9, k10, k11, k12⟩

set_option maxHeartbeats 1000000 in
/-- %10 … %27: from %9, %8, %7 and the attention and encoder arguments, the softmax weights %25, the context vector %26
    and %27 agree. The concatenation's operands %9, %8 are rewritten where they stand, inside its operand list. %8 and
    the arguments read later are not written, so they still agree. -/
theorem stretchB (h9 : XR (Proc.devRef .tc Cert.ReferenceIdeal.main_v9) = XK (Proc.devRef .tc Cert.KernelIdeal.main_v9)) (h8 : XR (Proc.devRef .tc Cert.ReferenceIdeal.main_v8) = XK (Proc.devRef .tc Cert.KernelIdeal.main_v8)) (h7 : XR (Proc.devRef .tc Cert.ReferenceIdeal.main_v7) = XK (Proc.devRef .tc Cert.KernelIdeal.main_v7))
    (a5 : XR (Proc.devRef .tc Cert.ReferenceIdeal.main_arg5) = XK (Proc.devRef .tc Cert.KernelIdeal.main_arg5)) (a6 : XR (Proc.devRef .tc Cert.ReferenceIdeal.main_arg6) = XK (Proc.devRef .tc Cert.KernelIdeal.main_arg6)) (a3 : XR (Proc.devRef .tc Cert.ReferenceIdeal.main_arg3) = XK (Proc.devRef .tc Cert.KernelIdeal.main_arg3))
    (k7 : XR (Proc.devRef .tc Cert.ReferenceIdeal.main_arg7) = XK (Proc.devRef .tc Cert.KernelIdeal.main_arg7))
    (k8 : XR (Proc.devRef .tc Cert.ReferenceIdeal.main_arg8) = XK (Proc.devRef .tc Cert.KernelIdeal.main_arg8))
    (k9 : XR (Proc.devRef .tc Cert.ReferenceIdeal.main_arg9) = XK (Proc.devRef .tc Cert.KernelIdeal.main_arg9))
    (k10 : XR (Proc.devRef .tc Cert.ReferenceIdeal.main_arg10) = XK (Proc.devRef .tc Cert.KernelIdeal.main_arg10))
    (k11 : XR (Proc.devRef .tc Cert.ReferenceIdeal.main_arg11) = XK (Proc.devRef .tc Cert.KernelIdeal.main_arg11))
    (k12 : XR (Proc.devRef .tc Cert.ReferenceIdeal.main_arg12) = XK (Proc.devRef .tc Cert.KernelIdeal.main_arg12)) :
    StableHlo.after RB XR (Proc.devRef .tc Cert.ReferenceIdeal.main_v25) = StableHlo.after KB XK (Proc.devRef .tc Cert.KernelIdeal.main_v25)
    ∧ StableHlo.after RB XR (Proc.devRef .tc Cert.ReferenceIdeal.main_v26) = StableHlo.after KB XK (Proc.devRef .tc Cert.KernelIdeal.main_v26)
    ∧ StableHlo.after RB XR (Proc.devRef .tc Cert.ReferenceIdeal.main_v27) = StableHlo.after KB XK (Proc.devRef .tc Cert.KernelIdeal.main_v27)
    ∧ StableHlo.after RB XR (Proc.devRef .tc Cert.ReferenceIdeal.main_v8) = StableHlo.after KB XK (Proc.devRef .tc Cert.KernelIdeal.main_v8)
    ∧ StableHlo.after RB XR (Proc.devRef .tc Cert.ReferenceIdeal.main_arg7) = StableHlo.after KB XK (Proc.devRef .tc Cert.KernelIdeal.main_arg7)
    ∧ StableHlo.after RB XR (Proc.devRef .tc Cert.ReferenceIdeal.main_arg8) = StableHlo.after KB XK (Proc.devRef .tc Cert.KernelIdeal.main_arg8)
    ∧ StableHlo.after RB XR (Proc.devRef .tc Cert.ReferenceIdeal.main_arg9) = StableHlo.after KB XK (Proc.devRef .tc Cert.KernelIdeal.main_arg9)
    ∧ StableHlo.after RB XR (Proc.devRef .tc Cert.ReferenceIdeal.main_arg10) = StableHlo.after KB XK (Proc.devRef .tc Cert.KernelIdeal.main_arg10)
    ∧ StableHlo.after RB XR (Proc.devRef .tc Cert.ReferenceIdeal.main_arg11) = StableHlo.after KB XK (Proc.devRef .tc Cert.KernelIdeal.main_arg11)
    ∧ StableHlo.after RB XR (Proc.devRef .tc Cert.ReferenceIdeal.main_arg12) = StableHlo.after KB XK (Proc.devRef .tc Cert.KernelIdeal.main_arg12) := by
  stretch_lists
  after_results_simp
  rw [h9, h8]
  simp only [h7, a5, a6, a3]
  exact ⟨rfl, rfl, rfl, trivial, k7, k8, k9, k10, k11, k12⟩

set_option maxHeartbeats 1000000 in
/-- %28 … %69: from %27, %26, %8 and the combine and recurrent arguments, the new hidden state %69 agrees. The
    concatenation's operands %27, %26 are rewritten inside its operand list. %25 is not written (nor by the kernel's
    one more reshape), so it still agrees. -/
theorem stretchC (h27 : XR (Proc.devRef .tc Cert.ReferenceIdeal.main_v27) = XK (Proc.devRef .tc Cert.KernelIdeal.main_v27)) (h26 : XR (Proc.devRef .tc Cert.ReferenceIdeal.main_v26) = XK (Proc.devRef .tc Cert.KernelIdeal.main_v26)) (h8 : XR (Proc.devRef .tc Cert.ReferenceIdeal.main_v8) = XK (Proc.devRef .tc Cert.KernelIdeal.main_v8))
    (a7 : XR (Proc.devRef .tc Cert.ReferenceIdeal.main_arg7) = XK (Proc.devRef .tc Cert.KernelIdeal.main_arg7)) (a8 : XR (Proc.devRef .tc Cert.ReferenceIdeal.main_arg8) = XK (Proc.devRef .tc Cert.KernelIdeal.main_arg8)) (a9 : XR (Proc.devRef .tc Cert.ReferenceIdeal.main_arg9) = XK (Proc.devRef .tc Cert.KernelIdeal.main_arg9)) (a10 : XR (Proc.devRef .tc Cert.ReferenceIdeal.main_arg10) = XK (Proc.devRef .tc Cert.KernelIdeal.main_arg10)) (a11 : XR (Proc.devRef .tc Cert.ReferenceIdeal.main_arg11) = XK (Proc.devRef .tc Cert.KernelIdeal.main_arg11)) (a12 : XR (Proc.devRef .tc Cert.ReferenceIdeal.main_arg12) = XK (Proc.devRef .tc Cert.KernelIdeal.main_arg12))
    (k25 : XR (Proc.devRef .tc Cert.ReferenceIdeal.main_v25) = XK (Proc.devRef .tc Cert.KernelIdeal.main_v25)) :
    StableHlo.after RC XR (Proc.devRef .tc Cert.ReferenceIdeal.main_v69) = StableHlo.after KC XK (Proc.devRef .tc Cert.KernelIdeal.main_v69)
    ∧ StableHlo.after RC XR (Proc.devRef .tc Cert.ReferenceIdeal.main_v25) = StableHlo.after KC XK (Proc.devRef .tc Cert.KernelIdeal.main_v25) := by
  stretch_lists
  after_results_simp
  rw [h27, h26]
  simp only [h8, a7, a8, a9, a10, a11, a12]
  exact ⟨rfl, k25⟩

end Stretches

/-! ## The cuts -/

/-- The reference's first 82 operations are its three stretches in order. -/
theorem ref_cut : (Cert.ReferenceIdeal.RunP.ops (F := Ideal)).take 82 = RA ++ (RB ++ RC) := by stretch_lists

/-- The kernel's host operations before its region are its three stretches in order. -/
theorem ker_cut : (List.flatten [Cert.KernelIdeal.Gen.hostOps0 (F := Ideal), Cert.KernelIdeal.Gen.hostOps0_1, Cert.KernelIdeal.Gen.hostOps0_2]) = KA ++ (KB ++ KC) := by
  simp only [List.flatten_cons, List.flatten_nil]; stretch_lists

/-! ## The prefix -/

/-- From contents that agree on the fifteen arguments, %69 and %25 agree after the two prefixes. -/
theorem prefix_core (XR : Valuation Cert.ReferenceIdeal.τ Cert.ReferenceIdeal.sig (Elt Ideal))
    (XK : Valuation Cert.KernelIdeal.τ Cert.KernelIdeal.sig (Elt Ideal))
    (h0 : XR (Proc.devRef .tc Cert.ReferenceIdeal.main_arg0) = XK (Proc.devRef .tc Cert.KernelIdeal.main_arg0))
    (h1 : XR (Proc.devRef .tc Cert.ReferenceIdeal.main_arg1) = XK (Proc.devRef .tc Cert.KernelIdeal.main_arg1))
    (h2 : XR (Proc.devRef .tc Cert.ReferenceIdeal.main_arg2) = XK (Proc.devRef .tc Cert.KernelIdeal.main_arg2))
    (h3 : XR (Proc.devRef .tc Cert.ReferenceIdeal.main_arg3) = XK (Proc.devRef .tc Cert.KernelIdeal.main_arg3))
    (h4 : XR (Proc.devRef .tc Cert.ReferenceIdeal.main_arg4) = XK (Proc.devRef .tc Cert.KernelIdeal.main_arg4))
    (h5 : XR (Proc.devRef .tc Cert.ReferenceIdeal.main_arg5) = XK (Proc.devRef .tc Cert.KernelIdeal.main_arg5))
    (h6 : XR (Proc.devRef .tc Cert.ReferenceIdeal.main_arg6) = XK (Proc.devRef .tc Cert.KernelIdeal.main_arg6))
    (h7 : XR (Proc.devRef .tc Cert.ReferenceIdeal.main_arg7) = XK (Proc.devRef .tc Cert.KernelIdeal.main_arg7))
    (h8 : XR (Proc.devRef .tc Cert.ReferenceIdeal.main_arg8) = XK (Proc.devRef .tc Cert.KernelIdeal.main_arg8))
    (h9 : XR (Proc.devRef .tc Cert.ReferenceIdeal.main_arg9) = XK (Proc.devRef .tc Cert.KernelIdeal.main_arg9))
    (h10 : XR (Proc.devRef .tc Cert.ReferenceIdeal.main_arg10) = XK (Proc.devRef .tc Cert.KernelIdeal.main_arg10))
    (h11 : XR (Proc.devRef .tc Cert.ReferenceIdeal.main_arg11) = XK (Proc.devRef .tc Cert.KernelIdeal.main_arg11))
    (h12 : XR (Proc.devRef .tc Cert.ReferenceIdeal.main_arg12) = XK (Proc.devRef .tc Cert.KernelIdeal.main_arg12))
    (h13 : XR (Proc.devRef .tc Cert.ReferenceIdeal.main_arg13) = XK (Proc.devRef .tc Cert.KernelIdeal.main_arg13))
    (h14 : XR (Proc.devRef .tc Cert.ReferenceIdeal.main_arg14) = XK (Proc.devRef .tc Cert.KernelIdeal.main_arg14)) :
    StableHlo.after ((Cert.ReferenceIdeal.RunP.ops (F := Ideal)).take 82) XR (Proc.devRef .tc Cert.ReferenceIdeal.main_v69)
        = StableHlo.after (List.flatten [Cert.KernelIdeal.Gen.hostOps0 (F := Ideal), Cert.KernelIdeal.Gen.hostOps0_1, Cert.KernelIdeal.Gen.hostOps0_2]) XK (Proc.devRef .tc Cert.KernelIdeal.main_v69)
    ∧ StableHlo.after ((Cert.ReferenceIdeal.RunP.ops (F := Ideal)).take 82) XR (Proc.devRef .tc Cert.ReferenceIdeal.main_v25)
        = StableHlo.after (List.flatten [Cert.KernelIdeal.Gen.hostOps0 (F := Ideal), Cert.KernelIdeal.Gen.hostOps0_1, Cert.KernelIdeal.Gen.hostOps0_2]) XK (Proc.devRef .tc Cert.KernelIdeal.main_v25) := by
  rw [ref_cut, ker_cut]
  simp only [StableHlo.after_append]
  obtain ⟨v7, v8, v9, a3, a5, a6, a7, a8, a9, a10, a11, a12⟩ :=
    stretchA XR XK h0 h1 h4 h3 h5 h6 h7 h8 h9 h10 h11 h12
  obtain ⟨v25, v26, v27, v8', b7, b8, b9, b10, b11, b12⟩ :=
    stretchB (StableHlo.after RA XR) (StableHlo.after KA XK) v9 v8 v7 a5 a6 a3 a7 a8 a9 a10 a11 a12
  exact stretchC (StableHlo.after RB (StableHlo.after RA XR)) (StableHlo.after KB (StableHlo.after KA XK))
    v27 v26 v8' b7 b8 b9 b10 b11 b12 v25

/-- From memories that agree on the arguments, the new hidden state %69 and the attention weights %25 hold the same
    arrays after the reference's first 82 operations as after the kernel's host operations before its region. -/
theorem prefix_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
        ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
        ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    refPre m' c (Proc.devRef .tc Cert.ReferenceIdeal.main_v69) = Cert.KernelIdeal.Gen.V m c Cert.KernelIdeal.main_v69
    ∧ refPre m' c (Proc.devRef .tc Cert.ReferenceIdeal.main_v25) = Cert.KernelIdeal.Gen.V m c Cert.KernelIdeal.main_v25 := by
  obtain ⟨h0, h1, h2, h3, h4, h5, h6, h7, h8, h9, h10, h11, h12, h13, h14⟩ := hagree
  dsimp only [refPre, Cert.KernelIdeal.Gen.V, Cert.KernelIdeal.Gen.V0]
  exact prefix_core (StableHlo.launchContents m' c) (fun b => m (c, b)) h0 h1 h2 h3 h4 h5 h6 h7 h8 h9 h10 h11 h12 h13 h14

end Cert.Bridge

end
-- ==== Proof.lean ====
/-
  A single decoding step of an attention decoder: an embedding row, additive attention over 35 encoder positions, a combine
  layer, a clamp at zero, one gated recurrent step, a projection of the new hidden state onto 50000 output classes, and a
  row-wise log-softmax. The kernel computes the projection on the accelerator, sixteen blocks of 3200 weight rows at a
  time (the last block reaching 1200 rows past the matrix), with operands narrowed to a shorter float format on the way to
  the matrix unit; everything before and after it is the same host computation in both programs.

  Over the extended reals the narrowing is the identity and the matrix unit's product is a plain sum, so each logit is the
  hidden state against one weight row plus one bias entry in both programs — the same sum of the same products and the
  same one addition, equal at every extended real, finite or not. A logit reads only its own weight row, so the unnamed
  rows past the matrix in the last block reach only the 1200 logits that are never written back. The frames hold at
  either float instance: the run follows the three inputs' staging buffers and says nothing of the result's. The
  idealization rewrote no operation, so there is nothing to preserve.
-/
import proofs.«146619_j47665547051595_2_alg».proof.Defs
import proofs.«146619_j47665547051595_2_alg».proof.Proof.Gen.Kernel
import proofs.«146619_j47665547051595_2_alg».proof.Proof.Gen.KernelIdeal
import proofs.«146619_j47665547051595_2_alg».proof.Proof.Gen.ReferenceIdeal
import proofs.«146619_j47665547051595_2_alg».proof.Proof.Gen.Pre_finite_inputs
import proofs.«146619_j47665547051595_2_alg».proof.Proof.Assembly
import proofs.«146619_j47665547051595_2_alg».proof.Proof.PrefixAgree

noncomputable section

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves,
    algebraic_of (fun m m' c h => Cert.Bridge.prefix_agree m m' c h)⟩

end Cert.Proof

end
